-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x1 : Shape := ⟨2, ![100000, 1]⟩
abbrev S1x128 : Shape := ⟨2, ![1, 128]⟩
abbrev S1x64 : Shape := ⟨2, ![1, 64]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S900000x128 : Shape := ⟨2, ![900000, 128]⟩
abbrev S900000x64 : Shape := ⟨2, ![900000, 64]⟩

abbrev nBuf : Space → Nat
  | .hbm => 61
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S1x128, .f32⟩
  | .hbm, ⟨29, _⟩ => ⟨S1x64, .f32⟩
  | .hbm, ⟨30, _⟩ => ⟨S100000x128, .bf16⟩
  | .hbm, ⟨31, _⟩ => ⟨S_, .i32⟩
  | .hbm, ⟨32, _⟩ => ⟨S900000, .i32⟩
  | .hbm, ⟨33, _⟩ => ⟨S900000, .i1⟩
  | .hbm, ⟨34, _⟩ => ⟨S_, .i32⟩
  | .hbm, ⟨35, _⟩ => ⟨S900000, .i32⟩
  | .hbm, ⟨36, _⟩ => ⟨S900000, .i32⟩
  | .hbm, ⟨37, _⟩ => ⟨S900000, .i32⟩
  | .hbm, ⟨38, _⟩ => ⟨S900000x1, .i32⟩
  | .hbm, ⟨39, _⟩ => ⟨S900000x128, .bf16⟩
  | .hbm, ⟨40, _⟩ => ⟨S900000x128, .f32⟩
  | .hbm, ⟨41, _⟩ => ⟨S_, .f32⟩
  | .hbm, ⟨42, _⟩ => ⟨S100000x128, .f32⟩
  | .hbm, ⟨43, _⟩ => ⟨S900000x1, .i32⟩
  | .hbm, ⟨44, _⟩ => ⟨S100000x128, .f32⟩
  | .hbm, ⟨45, _⟩ => ⟨S100000x64, .bf16⟩
  | .hbm, ⟨46, _⟩ => ⟨S_, .i32⟩
  | .hbm, ⟨47, _⟩ => ⟨S900000, .i32⟩
  | .hbm, ⟨48, _⟩ => ⟨S900000, .i1⟩
  | .hbm, ⟨49, _⟩ => ⟨S_, .i32⟩
  | .hbm, ⟨50, _⟩ => ⟨S900000, .i32⟩
  | .hbm, ⟨51, _⟩ => ⟨S900000, .i32⟩
  | .hbm, ⟨52, _⟩ => ⟨S900000, .i32⟩
  | .hbm, ⟨53, _⟩ => ⟨S900000x1, .i32⟩
  | .hbm, ⟨54, _⟩ => ⟨S900000x64, .bf16⟩
  | .hbm, ⟨55, _⟩ => ⟨S900000x64, .f32⟩
  | .hbm, ⟨56, _⟩ => ⟨S_, .f32⟩
  | .hbm, ⟨57, _⟩ => ⟨S100000x64, .f32⟩
  | .hbm, ⟨58, _⟩ => ⟨S900000x1, .i32⟩
  | .hbm, ⟨59, _⟩ => ⟨S100000x64, .f32⟩
  | .hbm, ⟨60, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S1x128, .f32⟩
  | .local _ .vmem, ⟨10, _⟩ => ⟨S4000x1, .f32⟩
  | .local _ .vmem, ⟨11, _⟩ => ⟨S4000x1, .f32⟩
  | .local _ .vmem, ⟨12, _⟩ => ⟨S128x64, .f32⟩
  | .local _ .vmem, ⟨13, _⟩ => ⟨S4000x64, .bf16⟩
  | .local _ .vmem, ⟨14, _⟩ => ⟨S4000x64, .bf16⟩
  | .local _ .vmem, ⟨15, _⟩ => ⟨S4000x64, .f32⟩
  | .local _ .vmem, ⟨16, _⟩ => ⟨S4000x64, .f32⟩
  | .local _ .vmem, ⟨17, _⟩ => ⟨S1x64, .f32⟩
  | .local _ .vmem, ⟨18, _⟩ => ⟨S4000x1, .f32⟩
  | .local _ .vmem, ⟨19, _⟩ => ⟨S4000x1, .f32⟩
  | .local _ .vmem, ⟨20, _⟩ => ⟨S4000x64, .f32⟩
  | .local _ .vmem, ⟨21, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S100000_S100000x1 : S100000.ShapeCasts S100000x1
  shapeCasts_S128_S1x128 : S128.ShapeCasts S1x128
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S900000x1_S900000_n_0_0_1_wf : ScatterDims.WF S100000 S900000x1 S900000 [] [0] [0] 1
  dot_S4000x64_S64x128_S4000x128_1_0_0_1_n_n_wf : DotDims.WF S4000x64 S64x128 S4000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S4000x128_S128x64_S4000x64_1_0_0_1_n_n_wf : DotDims.WF S4000x128 S128x64 S4000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S4000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S100000x128 : Shape := ⟨2, ![100000, 128]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S900000x64 : Shape := ⟨2, ![900000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x800000, .i32⟩
  | 2 => ⟨S64x128, .f32⟩
  | 3 => ⟨S128, .f32⟩
  | 4 => ⟨S128x64, .f32⟩
  | 5 => ⟨S64, .f32⟩
  | 6 => ⟨S100000, .i32⟩
  | 7 => ⟨S1x800000, .i32⟩
  | 8 => ⟨S800000, .i32⟩
  | 9 => ⟨S900000, .i32⟩
  | 10 => ⟨S1x800000, .i32⟩
  | 11 => ⟨S800000, .i32⟩
  | 12 => ⟨S900000, .i32⟩
  | 13 => ⟨S100000x128, .f32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S900000, .i32⟩
  | 30 => ⟨S900000, .i1⟩
  | 31 => ⟨S_, .i32⟩
  | 32 => ⟨S900000, .i32⟩
  | 33 => ⟨S900000, .i32⟩
  | 34 => ⟨S900000, .i32⟩
  | 35 => ⟨S900000x1, .i32⟩
  | 36 => ⟨S900000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S900000, .f32⟩
  | 47 => ⟨S900000x1, .f32⟩
  | 48 => ⟨S_, .i32⟩
  | 49 => ⟨S900000, .i32⟩
  | 50 => ⟨S900000, .i1⟩
  | 51 => ⟨S_, .i32⟩
  | 52 => ⟨S900000, .i32⟩
  | 53 => ⟨S900000, .i32⟩
  | 54 => ⟨S900000, .i32⟩
  | 55 => ⟨S900000x1, .i32⟩
  | 56 => ⟨S900000x128, .f32⟩
  | 57 => ⟨S900000x128, .f32⟩
  | 58 => ⟨S900000x128, .f32⟩
  | 59 => ⟨S_, .f32⟩
  | 60 => ⟨S100000x128, .f32⟩
  | 61 => ⟨S900000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x800000, .i32⟩
  | 71 => ⟨S800000, .i32⟩
  | 72 => ⟨S900000, .i32⟩
  | 73 => ⟨S1x800000, .i32⟩
  | 74 => ⟨S800000, .i32⟩
  | 75 => ⟨S900000, .i32⟩
  | 76 => ⟨S100000x64, .f32⟩
  | 77 => ⟨S_, .f32⟩
  | 78 => ⟨S900000, .f32⟩
  | 79 => ⟨S_, .f32⟩
  | 80 => ⟨S100000, .f32⟩
  | 81 => ⟨S900000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S900000, .i32⟩
  | 93 => ⟨S900000, .i1⟩
  | 94 => ⟨S_, .i32⟩
  | 95 => ⟨S900000, .i32⟩
  | 96 => ⟨S900000, .i32⟩
  | 97 => ⟨S900000, .i32⟩
  | 98 => ⟨S900000x1, .i32⟩
  | 99 => ⟨S900000, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000, .f32⟩
  | 109 => ⟨S900000, .f32⟩
  | 110 => ⟨S900000x1, .f32⟩
  | 111 => ⟨S_, .i32⟩
  | 112 => ⟨S900000, .i32⟩
  | 113 => ⟨S900000, .i1⟩
  | 114 => ⟨S_, .i32⟩
  | 115 => ⟨S900000, .i32⟩
  | 116 => ⟨S900000, .i32⟩
  | 117 => ⟨S900000, .i32⟩
  | 118 => ⟨S900000x1, .i32⟩
  | 119 => ⟨S900000x64, .f32⟩
  | 120 => ⟨S900000x64, .f32⟩
  | 121 => ⟨S900000x64, .f32⟩
  | 122 => ⟨S_, .f32⟩
  | 123 => ⟨S100000x64, .f32⟩
  | 124 => ⟨S900000x1, .i32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x128_S100000x128_1_0_0_1_n_n_wf : DotDims.WF S100000x64 S64x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.RefStages.lean ====
/-
  The reference's @main, stage by stage, as pure functions of the arrays each stage reads.

  The reference is two graph-convolution layers. A layer multiplies the node features by a weight matrix, gives every edge
  (self loops included) the product of its two endpoints' weights — a node's weight being the inverse square root of its
  in-degree —, scales the source's row by it, adds the scaled rows up at the edge's target, and adds a bias. Between the two
  layers every entry is replaced by its maximum with zero.
-/
import proofs.«157799_j60902636257285_2_alg».proof.Proof.Gen.ReferenceIdeal

noncomputable section

namespace Cert.ReferenceIdeal.Host

open Cert.ReferenceIdeal Cert.ReferenceIdeal.Facts₀ Cert.ReferenceIdeal.Facts Idealize.ShloMosaic Idealize.ShloMosaic.TcCoe Idealize.SL.Sem

variable {F : FTy → Type} [FloatOps F]

/-- The 900000 edge sources: row 0 of the edge array, then one self loop per node. -/
def sources (E : (⟨S2x800000, .i32⟩ : BufTy).Contents (Elt F)) : (⟨S900000, .i32⟩ : BufTy).Contents (Elt F) :=
  concatenate S900000 0 [⟨S800000, shapeCast S800000 (extractStridedSlice S1x800000 ![0, 0] E slices_S2x800000_S1x800000_0_0) shapeCasts_S1x800000_S800000⟩,
    ⟨S100000, iotaInDim S100000 32 0⟩] concatenates_S800000_S100000_S900000_d0

/-- The 900000 edge targets: row 1 of the edge array, then one self loop per node. -/
def targets (E : (⟨S2x800000, .i32⟩ : BufTy).Contents (Elt F)) : (⟨S900000, .i32⟩ : BufTy).Contents (Elt F) :=
  concatenate S900000 0 [⟨S800000, shapeCast S800000 (extractStridedSlice S1x800000 ![1, 0] E slices_S2x800000_S1x800000_1_0) shapeCasts_S1x800000_S800000⟩,
    ⟨S100000, iotaInDim S100000 32 0⟩] concatenates_S800000_S100000_S900000_d0

/-- A vector of 900000 indices as the 900000-by-1 array of start indices a gather or a scatter takes. -/
def asColumn (J : (⟨S900000, .i32⟩ : BufTy).Contents (Elt F)) : (⟨S900000x1, .i32⟩ : BufTy).Contents (Elt F) :=
  broadcastInDim S900000x1 ![0] bcast_S900000_S900000x1_0 J

/-- Indexing counts a negative index from the end: such an index has the number of nodes added to it. -/
def fromEnd (J : (⟨S900000, .i32⟩ : BufTy).Contents (Elt F)) : (⟨S900000, .i32⟩ : BufTy).Contents (Elt F) :=
  select (cmpi .slt J (broadcastInDim S900000 ![] bcast_S_S900000 (constantI S_ 32 0#32)))
    (addi J (broadcastInDim S900000 ![] bcast_S_S900000 (constantI S_ 32 100000#32))) J

/-- The in-degrees: from zero, one added at every edge's target. -/
def degrees (T : (⟨S900000, .i32⟩ : BufTy).Contents (Elt F)) : (⟨S100000, .f32⟩ : BufTy).Contents (Elt F) :=
  Host.scatterAdd scatter_S100000_S900000x1_S900000_n_0_0_1 (broadcastInDim S100000 ![] bcast_S_S100000 (constant S_ .f32 0x00000000#32))
    (asColumn T) (broadcastInDim S900000 ![] bcast_S_S900000 (constant S_ .f32 0x3F800000#32))

/-- The node weights from the degrees: the inverse square root where the degree is positive, zero elsewhere. -/
def weightsOf (d : (⟨S100000, .f32⟩ : BufTy).Contents (Elt F)) : (⟨S100000, .f32⟩ : BufTy).Contents (Elt F) :=
  select (cmpf (F := F) .ogt d (broadcastInDim S100000 ![] bcast_S_S100000 (constant S_ .f32 0x00000000#32))) (Host.rsqrt d)
    (broadcastInDim S100000 ![] bcast_S_S100000 (id (constant S_ .f32 0x00000000#32)))

/-- The node weights of an edge array. -/
def weights (E : (⟨S2x800000, .i32⟩ : BufTy).Contents (Elt F)) : (⟨S100000, .f32⟩ : BufTy).Contents (Elt F) :=
  weightsOf (degrees (targets E))

/-- An edge's factor: its source's weight times its target's weight. -/
def edgeFactor (D : (⟨S100000, .f32⟩ : BufTy).Contents (Elt F)) (S T : (⟨S900000, .i32⟩ : BufTy).Contents (Elt F)) :
    (⟨S900000, .f32⟩ : BufTy).Contents (Elt F) :=
  mulf (Host.gather gather_S100000_S900000x1_S900000_n_0_n_n_0_1_1 D (asColumn (fromEnd S)))
    (Host.gather gather_S100000_S900000x1_S900000_n_0_n_n_0_1_1 D (asColumn (fromEnd T)))

/-- Layer one's aggregation of a 100000-by-128 table: every edge's source row times the edge's factor, added up at the
    edge's target. -/
def aggregate128 (D : (⟨S100000, .f32⟩ : BufTy).Contents (Elt F)) (X : (⟨S100000x128, .f32⟩ : BufTy).Contents (Elt F))
    (S T : (⟨S900000, .i32⟩ : BufTy).Contents (Elt F)) : (⟨S100000x128, .f32⟩ : BufTy).Contents (Elt F) :=
  Host.scatterAdd scatter_S100000x128_S900000x1_S900000x128_1_0_0_1
    (broadcastInDim S100000x128 ![] bcast_S_S100000x128 (constant S_ .f32 0x00000000#32)) (asColumn T)
    (mulf (broadcastInDim S900000x128 ![0, 1] bcast_S900000x1_S900000x128_0_1
        (broadcastInDim S900000x1 ![0] bcast_S900000_S900000x1_0 (edgeFactor D S T)))
      (Host.gather gather_S100000x128_S900000x1_S900000x128_1_0_n_n_0_1_1128 X (asColumn (fromEnd S))))

/-- Layer two's aggregation of a 100000-by-64 table. -/
def aggregate64 (D : (⟨S100000, .f32⟩ : BufTy).Contents (Elt F)) (X : (⟨S100000x64, .f32⟩ : BufTy).Contents (Elt F))
    (S T : (⟨S900000, .i32⟩ : BufTy).Contents (Elt F)) : (⟨S100000x64, .f32⟩ : BufTy).Contents (Elt F) :=
  Host.scatterAdd scatter_S100000x64_S900000x1_S900000x64_1_0_0_1
    (broadcastInDim S100000x64 ![] bcast_S_S100000x64 (constant S_ .f32 0x00000000#32)) (asColumn T)
    (mulf (broadcastInDim S900000x64 ![0, 1] bcast_S900000x1_S900000x64_0_1
        (broadcastInDim S900000x1 ![0] bcast_S900000_S900000x1_0 (edgeFactor D S T)))
      (Host.gather gather_S100000x64_S900000x1_S900000x64_1_0_n_n_0_1_164 X (asColumn (fromEnd S))))

/-- The hidden features: layer one's aggregation of the product of the node features with the first weight matrix, plus the
    first bias, every entry replaced by its maximum with zero. -/
def hidden (x : (⟨S100000x64, .f32⟩ : BufTy).Contents (Elt F)) (E : (⟨S2x800000, .i32⟩ : BufTy).Contents (Elt F))
    (W1 : (⟨S64x128, .f32⟩ : BufTy).Contents (Elt F)) (b1 : (⟨S128, .f32⟩ : BufTy).Contents (Elt F)) :
    (⟨S100000x128, .f32⟩ : BufTy).Contents (Elt F) :=
  maximumf
    (addf (aggregate128 (weights E) (Host.dotGeneral dot_S100000x64_S64x128_S100000x128_1_0_0_1_n_n none x W1) (sources E) (targets E))
      (broadcastInDim S100000x128 ![0, 1] bcast_S1x128_S100000x128_0_1 (broadcastInDim S1x128 ![1] bcast_S128_S1x128_1 b1)))
    (broadcastInDim S100000x128 ![] bcast_S_S100000x128 (constant S_ .f32 0x00000000#32))

/-- The reference's result: layer two's aggregation of the product of the hidden features with the second weight matrix,
    plus the second bias. -/
def result (x : (⟨S100000x64, .f32⟩ : BufTy).Contents (Elt F)) (E : (⟨S2x800000, .i32⟩ : BufTy).Contents (Elt F))
    (W1 : (⟨S64x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S100000x64, .f32⟩ : BufTy).Contents (Elt F) :=
  addf (aggregate64 (weights E) (Host.dotGeneral dot_S100000x128_S128x64_S100000x64_1_0_0_1_n_n none (hidden x E W1 b1) W2) (sources E) (targets E))
    (broadcastInDim S100000x64 ![0, 1] bcast_S1x64_S100000x64_0_1 (broadcastInDim S1x64 ![1] bcast_S64_S1x64_1 b2))

end Cert.ReferenceIdeal.Host

end
-- ==== Proof.RefResult.lean ====
/-
  The reference's run ends with its result buffer at `result` of the six arguments: the run's composed term of the arguments
  is, operation for operation, the staged definition.
-/
import proofs.«157799_j60902636257285_2_alg».proof.Proof.RefRunPatched
import proofs.«157799_j60902636257285_2_alg».proof.Proof.RefStages
import Idealize.ShloMosaic.PureOps.Ideal

set_option maxRecDepth 16384

noncomputable section

namespace Cert.ReferenceIdeal.RefValue

open Cert.ReferenceIdeal Idealize.ShloMosaic Idealize.ShloMosaic.TcCoe Idealize.SL.Sem

/-- The composed term the run states for the result buffer is the staged two-layer function of the launch contents of the
    six arguments. -/
theorem result_eq (m : (ℓ : Loc nD τ sig) → Buf (Elt Ideal) ℓ) (c : Dev nD) :
    Cert.ReferenceIdeal.ValueP.res_main_v94 (F := Ideal) m c
      = Cert.ReferenceIdeal.Host.result (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v94
  rfl

end Cert.ReferenceIdeal.RefValue

end
-- ==== Proof.KernelRun.lean ====
/-
  The idealized kernel's run, with every buffer it leaves NAMED.

  @main is eight segments: three stretches of host operations (the edge lists with their self loops; the in-degrees, a
  scatter-add of ones; their inverse square roots; three reshapes), then three tiled regions — layer one's scaled product,
  layer two's epilogue fused with its scaled product, the final scale and bias — with a gather of rows and a scatter-add
  between each two. Each segment maps the contents of the unscoped buffers at its entry to their contents at its exit, so the
  contents at the end are a fold over the segments from the launch memory: the last boundary's valuation. Every weakly fair
  execution terminates there. Read at the result buffer this names the result; read at an argument it walks back to the
  launch memory, since no segment writes an argument.
-/
import proofs.«157799_j60902636257285_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and on every device every unscoped buffer then holds
    what the fold of the eight segments leaves in it. The launch deals each core its unscoped buffers at the launch memory, its
    generator register and an empty debt: that is the first thread state. The thread states of consecutive segments are the
    same proposition, so they chain. The last thread state holds every unscoped buffer whole at the last valuation; against
    the state interpretation of a final state the memory therefore holds those contents. -/
theorem run_boundary : θ_run defs (onTc (τ := τ) (main (F := F))) ⟨m, fun _ => 0, ρ⟩
    (fun r => ∀ c : Dev nD, ∀ b ∈ Pipeline.ucRefs τ sig, r.2.mem (((c : Thread nD τ)).1, b) = W8 m ρ c b) := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => iprop(emp))
    (u₀ := initOf (Pipeline.cells cfgs cellOf_inj) (Pipeline.launchToks cfgs cellOf_inj)) ?launch
    (T₀ := fun c => iprop(StableHlo.held (c : Thread nD τ) (Pipeline.ucRefs τ sig) (W0 m ρ c) ∗ R c)) (Tₙ := Tₙ m ρ)
    ?chain ?first
    (QY := fun c s => ∀ b ∈ Pipeline.ucRefs τ sig, s.mem (((c : Thread nD τ)).1, b) = W8 m ρ c b) ?last (fun s h => h)
  case nodup =>
    -- the three regions enter three different pipelines
    simp only [segs, Pipeline.Seg.pipes_host, Pipeline.Seg.pipes_region, Pipeline.Seg.pipes_nil]
    decide
  case launch =>
    -- the launch element is the pipelines' own; the cores need no ghost resource beside it
    iintro Hown
    imodintro
    isplitl [Hown]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hown
    · iapply (show (BI.emp : sProp 𝕄) ⊢ bigSep Finset.univ (fun _ : Dev nD => (BI.emp : sProp 𝕄)) from by
        rw [BI.bigSep_emp_const])
      iempintro
  case chain =>
    -- each segment's exit state is the next one's entry state, as written
    exact ⟨fun _ => .rfl, fun _ => .rfl, fun _ => .rfl, fun _ => .rfl, fun _ => .rfl, fun _ => .rfl, fun _ => .rfl,
      fun _ => .rfl, fun _ => .rfl⟩
  case first =>
    -- core by core: the unscoped buffers at the launch memory are the held set at the first valuation
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Hdebt, -, Hreg, -⟩, -⟩
    imodintro
    isplitl [Hbufs]
    · iexact Hbufs
    isplitl [Hreg]
    · iexists _
      iexact Hreg
    iexists ∅
    iexact Hdebt
  case last =>
    -- the held set, a family of whole points-to facts, read against the state interpretation
    intro c s'
    iintro ⟨⟨Hbufs, -⟩, Hstate⟩
    unfold StableHlo.held
    imodintro
    iapply (pointsTo_read_all (Pipeline.ucRefs τ sig) (fun b => (((c : Thread nD τ)).1, b)) (W8 m ρ c) s')
    isplitl [Hbufs] <;> iassumption

/-- The same run read at the seven buffers the claim speaks of: the result buffer holds the last valuation's contents of it —
    what the last region's write-backs leave in its output array —, and each argument holds what it held at launch. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v42 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c)⟩) (run_boundary m ρ)

end Cert.KernelIdeal.Run

end
-- ==== Proof.HostStages.lean ====
/-
  The host side of the kernel's @main, stage by stage, as pure functions of the arrays each stage reads.

  With N = 100000 nodes and an edge array of 800000 (source, target) pairs, every node gets a self loop: the 900000
  sources are the array's first row followed by 0 … N−1, and the 900000 targets are its second row followed by 0 … N−1.
  The in-degree of a node is a scatter-add of ones at the targets; its weight is the inverse square root of the degree
  where that is positive and zero elsewhere. A layer's aggregation gathers, for every edge, the row of a table at the
  edge's source (a negative source counted from the end) and scatter-adds those rows at the targets.
-/
import proofs.«157799_j60902636257285_2_alg».proof.Proof.Gen.KernelIdeal.Frame

noncomputable section

namespace Cert.KernelIdeal.Host

open Cert.KernelIdeal Cert.KernelIdeal.Facts₀ Cert.KernelIdeal.Facts Idealize.ShloMosaic Idealize.ShloMosaic.TcCoe Idealize.SL.Sem

variable {F : FTy → Type} [FloatOps F]

/-- The 900000 edge sources: row 0 of the edge array, then one self loop per node. -/
def sources (E : (⟨S2x800000, .i32⟩ : BufTy).Contents (Elt F)) : (⟨S900000, .i32⟩ : BufTy).Contents (Elt F) :=
  concatenate S900000 0 [⟨S800000, shapeCast S800000 (extractStridedSlice S1x800000 ![0, 0] E slices_S2x800000_S1x800000_0_0) shapeCasts_S1x800000_S800000⟩,
    ⟨S100000, iotaInDim S100000 32 0⟩] concatenates_S800000_S100000_S900000_d0

/-- The 900000 edge targets: row 1 of the edge array, then one self loop per node. -/
def targets (E : (⟨S2x800000, .i32⟩ : BufTy).Contents (Elt F)) : (⟨S900000, .i32⟩ : BufTy).Contents (Elt F) :=
  concatenate S900000 0 [⟨S800000, shapeCast S800000 (extractStridedSlice S1x800000 ![1, 0] E slices_S2x800000_S1x800000_1_0) shapeCasts_S1x800000_S800000⟩,
    ⟨S100000, iotaInDim S100000 32 0⟩] concatenates_S800000_S100000_S900000_d0

/-- A vector of 900000 indices as the 900000-by-1 array of start indices a gather or a scatter takes. -/
def asColumn (J : (⟨S900000, .i32⟩ : BufTy).Contents (Elt F)) : (⟨S900000x1, .i32⟩ : BufTy).Contents (Elt F) :=
  broadcastInDim S900000x1 ![0] bcast_S900000_S900000x1_0 J

/-- Indexing counts a negative index from the end: such an index has the number of nodes added to it. -/
def fromEnd (J : (⟨S900000, .i32⟩ : BufTy).Contents (Elt F)) : (⟨S900000, .i32⟩ : BufTy).Contents (Elt F) :=
  select (cmpi .slt J (broadcastInDim S900000 ![] bcast_S_S900000 (constantI S_ 32 0#32)))
    (addi J (broadcastInDim S900000 ![] bcast_S_S900000 (constantI S_ 32 100000#32))) J

/-- The in-degrees: from zero, one added at every edge's target. -/
def degrees (T : (⟨S900000, .i32⟩ : BufTy).Contents (Elt F)) : (⟨S100000, .f32⟩ : BufTy).Contents (Elt F) :=
  Host.scatterAdd scatter_S100000_S900000x1_S900000_n_0_0_1 (broadcastInDim S100000 ![] bcast_S_S100000 (constant S_ .f32 0x00000000#32))
    (asColumn T) (broadcastInDim S900000 ![] bcast_S_S900000 (constant S_ .f32 0x3F800000#32))

/-- The node weights from the degrees: the inverse square root where the degree is positive, zero elsewhere. -/
def weightsOf (d : (⟨S100000, .f32⟩ : BufTy).Contents (Elt F)) : (⟨S100000, .f32⟩ : BufTy).Contents (Elt F) :=
  select (cmpf (F := F) .ogt d (broadcastInDim S100000 ![] bcast_S_S100000 (constant S_ .f32 0x00000000#32))) (Host.rsqrt d)
    (broadcastInDim S100000 ![] bcast_S_S100000 (id (constant S_ .f32 0x00000000#32)))

/-- The node weights of an edge array. -/
def weights (E : (⟨S2x800000, .i32⟩ : BufTy).Contents (Elt F)) : (⟨S100000, .f32⟩ : BufTy).Contents (Elt F) :=
  weightsOf (degrees (targets E))

/-- The weights as a 100000-by-1 column, the form the tiled regions read. -/
def weightColumn (E : (⟨S2x800000, .i32⟩ : BufTy).Contents (Elt F)) : (⟨S100000x1, .f32⟩ : BufTy).Contents (Elt F) :=
  shapeCast S100000x1 (weights E) shapeCasts_S100000_S100000x1

/-- Layer one's aggregation of a 100000-by-128 table: every edge's source row, added up at the edge's target. -/
def aggregate128 (Tb : (⟨S100000x128, .bf16⟩ : BufTy).Contents (Elt F)) (S T : (⟨S900000, .i32⟩ : BufTy).Contents (Elt F)) :
    (⟨S100000x128, .f32⟩ : BufTy).Contents (Elt F) :=
  Host.scatterAdd scatter_S100000x128_S900000x1_S900000x128_1_0_0_1
    (broadcastInDim S100000x128 ![] bcast_S_S100000x128 (constant S_ .f32 0x00000000#32)) (asColumn T)
    (extf .f32 (Host.gather gather_S100000x128_S900000x1_S900000x128_1_0_n_n_0_1_1128 Tb (asColumn (fromEnd S))) bitsLt_bf16_f32)

/-- Layer two's aggregation of a 100000-by-64 table. -/
def aggregate64 (Tb : (⟨S100000x64, .bf16⟩ : BufTy).Contents (Elt F)) (S T : (⟨S900000, .i32⟩ : BufTy).Contents (Elt F)) :
    (⟨S100000x64, .f32⟩ : BufTy).Contents (Elt F) :=
  Host.scatterAdd scatter_S100000x64_S900000x1_S900000x64_1_0_0_1
    (broadcastInDim S100000x64 ![] bcast_S_S100000x64 (constant S_ .f32 0x00000000#32)) (asColumn T)
    (extf .f32 (Host.gather gather_S100000x64_S900000x1_S900000x64_1_0_n_n_0_1_164 Tb (asColumn (fromEnd S))) bitsLt_bf16_f32)

end Cert.KernelIdeal.Host

end
-- ==== Proof.ChainEntry.lean ====
/-
  The kernel's buffers when the first tiled region is entered, read back to the launch memory.

  Three stretches of host operations run before the first region: the edge lists with their self loops and the in-degrees;
  the choice between a degree's inverse square root and zero; and the reshapes of the weights to a column and of the two
  biases to rows. A stretch leaves in each buffer it writes the operations' term of what it read and every other buffer as
  it was, so each buffer the regions will read is a term of the arguments.
-/
import proofs.«157799_j60902636257285_2_alg».proof.Proof.Gen.KernelIdeal.Frame
import proofs.«157799_j60902636257285_2_alg».proof.Proof.HostStages
import Idealize.ShloMosaic.Lib.StableHlo.Run
import Idealize.ShloMosaic.PureOps.Ideal

set_option maxRecDepth 16384

noncomputable section

namespace Cert.KernelIdeal.Chain

open Cert.KernelIdeal Cert.KernelIdeal.Facts₀ Cert.KernelIdeal.Facts Cert.KernelIdeal.Host
open Cert.KernelIdeal.Gen (W0 W1 W2 W3 W4 W5 W6 W7 W8 V3 V5 V7 hostOps0 hostOps0_1 hostOps0_2 hostOps1 hostOps2 dat0 dat1 dat2 W4_arr W4_of_ne W6_arr W6_of_ne W8_arr W8_of_ne)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The sources' buffer holds the edge sources of the edge array … -/
theorem sources_3 : W3 m ρ c (Proc.devRef .tc main_v3) = sources (m ((c : Thread nD τ).loc main_arg1)) := by
  show StableHlo.after hostOps0_2 (W2 m ρ c) (Proc.devRef .tc main_v3) = _
  after_results_simp <;> rfl
/-- … the targets' buffer its edge targets … -/
theorem targets_3 : W3 m ρ c (Proc.devRef .tc main_v6) = targets (m ((c : Thread nD τ).loc main_arg1)) := by
  show StableHlo.after hostOps0_2 (W2 m ρ c) (Proc.devRef .tc main_v6) = _
  after_results_simp <;> rfl
/-- After the first stretch: where the degree is positive, … -/
theorem positive_1 : W1 m ρ c (Proc.devRef .tc main_v12)
    = cmpf (F := Ideal) .ogt (degrees (targets (m ((c : Thread nD τ).loc main_arg1))))
        (broadcastInDim S100000 ![] bcast_S_S100000 (constant S_ .f32 0x00000000#32)) := by
  show StableHlo.after hostOps0 (W0 m ρ c) (Proc.devRef .tc main_v12) = _
  after_results_simp <;> rfl
/-- … the degrees' inverse square roots, … -/
theorem rsqrt_1 : W1 m ρ c (Proc.devRef .tc main_v13) = Host.rsqrt (degrees (targets (m ((c : Thread nD τ).loc main_arg1)))) := by
  show StableHlo.after hostOps0 (W0 m ρ c) (Proc.devRef .tc main_v13) = _
  after_results_simp <;> rfl
/-- … and the zero that stands where the degree is not positive. -/
theorem zero_1 : W1 m ρ c (Proc.devRef .tc main_cst_2) = constant (F := Ideal) S_ .f32 0x00000000#32 := by
  show StableHlo.after hostOps0 (W0 m ρ c) (Proc.devRef .tc main_cst_2) = _
  after_results_simp <;> rfl

/-- The second stretch, from any contents: it chooses, entry by entry, between the second buffer and the spread-out scalar. -/
theorem choose_of (V : Valuation τ sig (Elt Ideal)) :
    StableHlo.after hostOps0_1 V (Proc.devRef .tc main_v14)
      = select (V (Proc.devRef .tc main_v12)) (V (Proc.devRef .tc main_v13)) (broadcastInDim S100000 ![] bcast_S_S100000 (id (V (Proc.devRef .tc main_cst_2)))) := by
  after_results_simp <;> rfl
/-- After the second stretch: the node weights. -/
theorem weights_2 : W2 m ρ c (Proc.devRef .tc main_v14) = weights (m ((c : Thread nD τ).loc main_arg1)) := by
  refine (choose_of (W1 m ρ c)).trans ?_
  rw [positive_1 m ρ c, rsqrt_1 m ρ c, zero_1 m ρ c]
  rfl

/-- The third stretch, from any contents: it reshapes the weights to a column. -/
theorem column_of (V : Valuation τ sig (Elt Ideal)) :
    StableHlo.after hostOps0_2 V (Proc.devRef .tc main_v15) = shapeCast S100000x1 (V (Proc.devRef .tc main_v14)) shapeCasts_S100000_S100000x1 := by
  after_results_simp <;> rfl
/-- … the column's buffer the node weights as a column … -/
theorem column_3 : W3 m ρ c (Proc.devRef .tc main_v15) = weightColumn (m ((c : Thread nD τ).loc main_arg1)) := by
  refine (column_of (W2 m ρ c)).trans ?_
  rw [weights_2 m ρ c]
  rfl
/-- … the two bias rows the biases … -/
theorem biasOne_3 : W3 m ρ c (Proc.devRef .tc main_v16) = shapeCast S1x128 (m ((c : Thread nD τ).loc main_arg3)) shapeCasts_S128_S1x128 := by
  show StableHlo.after hostOps0_2 (W2 m ρ c) (Proc.devRef .tc main_v16) = _
  after_results_simp <;> rfl
theorem biasTwo_3 : W3 m ρ c (Proc.devRef .tc main_v17) = shapeCast S1x64 (m ((c : Thread nD τ).loc main_arg5)) shapeCasts_S64_S1x64 := by
  show StableHlo.after hostOps0_2 (W2 m ρ c) (Proc.devRef .tc main_v17) = _
  after_results_simp <;> rfl
/-- … and the arguments what they held at launch. -/
theorem features_3 : W3 m ρ c (Proc.devRef .tc main_arg0) = m ((c : Thread nD τ).loc main_arg0) := by
  show StableHlo.after hostOps0_2 (W2 m ρ c) (Proc.devRef .tc main_arg0) = _
  after_results_simp <;> rfl
theorem matOne_3 : W3 m ρ c (Proc.devRef .tc main_arg2) = m ((c : Thread nD τ).loc main_arg2) := by
  show StableHlo.after hostOps0_2 (W2 m ρ c) (Proc.devRef .tc main_arg2) = _
  after_results_simp <;> rfl
theorem matTwo_3 : W3 m ρ c (Proc.devRef .tc main_arg4) = m ((c : Thread nD τ).loc main_arg4) := by
  show StableHlo.after hostOps0_2 (W2 m ρ c) (Proc.devRef .tc main_arg4) = _
  after_results_simp <;> rfl

end Cert.KernelIdeal.Chain

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.RegionZero.lean ====
/-
  The first layer's matmul-and-scale step, as one function of whole arrays.

  The step walks the 100000 rows of the features in 25 blocks of 4000 rows. At each block it multiplies the block
  by the 64-by-128 weight matrix and scales every row of the product by that row's entry of a column of scale
  factors, and writes the block of the result back whole. Here: what one block computes, entry by entry (a sum
  over the 64 shared coordinates, then the scale); that the block written at step t is rows
  4000 t … 4000 t + 3999 of ONE function of the whole arrays; that the 25 blocks cover every row (row r lies in
  block r / 4000); hence the array the step leaves is that function:
      result (n, j) = (∑ k, features (n, k) * weights (k, j)) * scale (n, 0).
-/
import proofs.«157799_j60902636257285_2_alg».proof.Proof.Gen.KernelIdeal.Frame
import proofs.«157799_j60902636257285_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Idealize.ShloMosaic Idealize.ShloMosaic.ValueIdx Idealize.ShloMosaic.TcCoe Idealize.SL.Sem
open Idealize.ShloMosaic.Pipeline (Dat)

/-- The first layer's matmul-and-scale step on whole arrays: row n of the features `X` times the weights `W`, each
    entry of the product scaled by the n-th entry of the column `D`. -/
def matmulScale (X : S100000x64.Idx → EReal) (W : S64x128.Idx → EReal) (D : S100000x1.Idx → EReal) : S100000x128.Idx → EReal :=
  fun i => (∑ k : Fin 64, X (ix2 (n0 := 100000) (n1 := 64) (i 0) k) * W (ix2 (n0 := 64) (n1 := 128) k (i 1)))
    * D (ix2 (n0 := 100000) (n1 := 1) (i 0) 0)

namespace MatmulScale

/-- A block is read and written from its corner: both offsets are zero. -/
theorem zeroOffsets : (![0, 0] : Fin 2 → Nat) = fun _ => 0 := funext fun a => by fin_cases a <;> rfl

/-- One block, entry by entry: row p of the features' block times column q of the weights, summed over the 64
    shared coordinates, then scaled by the p-th entry of the column's block. The product starts from a zero
    accumulator, which adds nothing; the changes of number format before and after are the identity on the
    extended reals. -/
theorem block_apply (x : Vec Ideal S4000x64 .f32) (w : Vec Ideal S64x128 .f32) (d : Vec Ideal S4000x1 .f32)
    (p : Fin 4000) (q : Fin 128) :
    Gen.k0_pay1 (F := Ideal) x w d (ix2 p q) = (∑ k : Fin 64, x (ix2 p k) * w (ix2 k q)) * d (ix2 p (0 : Fin 1)) := by
  unfold Gen.k0_pay1
  simp only [shapeCast_self]
  rw [truncf_apply, mulf_apply, Cert.Lib.Column.broadcastTo_a1_ab_apply]
  refine congrArg (· * d (ix2 p (0 : Fin 1))) ?_
  refine (Ideal.matmul_constant_zero_apply dot_S4000x64_S64x128_S4000x128_1_0_0_1_n_n none
    (truncf FTy.bf16 x Gen.bitsLt_bf16_f32) (truncf FTy.bf16 w Gen.bitsLt_bf16_f32) (ix2 p q)).trans ?_
  rw [← Equiv.sum_comp (contrEquiv1 dot_S4000x64_S64x128_S4000x128_1_0_0_1_n_n 64 rfl rfl).symm]
  refine Finset.sum_congr rfl fun k _ => ?_
  have c2 := contrEquiv1_symm_val dot_S4000x64_S64x128_S4000x128_1_0_0_1_n_n 64 rfl rfl k
  have l2 : dot_S4000x64_S64x128_S4000x128_1_0_0_1_n_n.lhsIdx (ix2 p q) ((contrEquiv1 _ 64 rfl rfl).symm k) = ix2 p k := by
    funext ax; apply Fin.ext
    match ax with
    | ⟨0, _⟩ => simp [DotDims.lhsIdx, dot_S4000x64_S64x128_S4000x128_1_0_0_1_n_n]; rfl
    | ⟨1, _⟩ => simp [DotDims.lhsIdx, dot_S4000x64_S64x128_S4000x128_1_0_0_1_n_n]; exact c2
  have r2 : dot_S4000x64_S64x128_S4000x128_1_0_0_1_n_n.rhsIdx (ix2 p q) ((contrEquiv1 _ 64 rfl rfl).symm k) = ix2 k q := by
    funext ax; apply Fin.ext
    match ax with
    | ⟨0, _⟩ => simp [DotDims.rhsIdx, dot_S4000x64_S64x128_S4000x128_1_0_0_1_n_n]; exact c2
    | ⟨1, _⟩ => simp [DotDims.rhsIdx, dot_S4000x64_S64x128_S4000x128_1_0_0_1_n_n]; rfl
  rw [l2, r2]
  rfl

/-- Where each array's block sits at step t: the features, the column and the result at block row t, the weights
    at their only block. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The features' block at step t is rows 4000 t … 4000 t + 3999 of the array. -/
theorem featBlock_apply (c : Dev nD) (t : Fin cfg0.N) (p : Fin 4000) (k : Fin 64) (i : S100000x64.Idx)
    (h0 : (i 0).val = t.val * 4000 + p.val) (h1 : (i 1).val = k.val) :
    (Gen.iblk0 V c 0 t : Vec Ideal S4000x64 .f32) (ix2 p k) = (V c (Pipeline.arrRef spec0 0) : S100000x64.Idx → EReal) i := by
  obtain ⟨e0, e1, -⟩ := blockIndex t
  unfold Gen.iblk0
  rw [View.read_apply]
  refine congrArg (V c (Pipeline.arrRef spec0 0) : S100000x64.Idx → EReal) ?_
  funext a
  apply Fin.ext
  match a with
  | ⟨0, _⟩ => show win0_0.index t (0 : Fin 2) * 4000 + 1 * p.val = (i 0).val; rw [e0, h0]; omega
  | ⟨1, _⟩ => show win0_0.index t (1 : Fin 2) * 64 + 1 * k.val = (i 1).val; rw [e1, h1]; omega

/-- The weights' block at every step is the whole weight matrix. -/
theorem weightBlock_apply (c : Dev nD) (t : Fin cfg0.N) (k : Fin 64) (q : Fin 128) (i : S64x128.Idx)
    (h0 : (i 0).val = k.val) (h1 : (i 1).val = q.val) :
    (Gen.iblk0 V c 1 t : Vec Ideal S64x128 .f32) (ix2 k q) = (V c (Pipeline.arrRef spec0 1) : S64x128.Idx → EReal) i := by
  obtain ⟨-, -, e0, e1, -⟩ := blockIndex t
  unfold Gen.iblk0
  rw [View.read_apply]
  refine congrArg (V c (Pipeline.arrRef spec0 1) : S64x128.Idx → EReal) ?_
  funext a
  apply Fin.ext
  match a with
  | ⟨0, _⟩ => show win0_1.index t (0 : Fin 2) * 64 + 1 * k.val = (i 0).val; rw [e0, h0]; omega
  | ⟨1, _⟩ => show win0_1.index t (1 : Fin 2) * 128 + 1 * q.val = (i 1).val; rw [e1, h1]; omega

/-- The column's block at step t is entries 4000 t … 4000 t + 3999 of the column. -/
theorem colBlock_apply (c : Dev nD) (t : Fin cfg0.N) (p : Fin 4000) (i : S100000x1.Idx)
    (h0 : (i 0).val = t.val * 4000 + p.val) :
    (Gen.iblk0 V c 2 t : Vec Ideal S4000x1 .f32) (ix2 p (0 : Fin 1)) = (V c (Pipeline.arrRef spec0 2) : S100000x1.Idx → EReal) i := by
  obtain ⟨-, -, -, -, e0, e1, -⟩ := blockIndex t
  unfold Gen.iblk0
  rw [View.read_apply]
  refine congrArg (V c (Pipeline.arrRef spec0 2) : S100000x1.Idx → EReal) ?_
  funext a
  apply Fin.ext
  match a with
  | ⟨0, _⟩ => show win0_2.index t (0 : Fin 2) * 4000 + 1 * p.val = (i 0).val; rw [e0, h0]; omega
  | ⟨1, _⟩ => show win0_2.index t (1 : Fin 2) * 1 + 1 * 0 = (i 1).val; rw [e1]; have h : (i 1).val < 1 := (i 1).isLt; omega

/-- What step t writes back is block t of `matmulScale` of the arrays the step finds: entry (p, q) of the block is
    entry (4000 t + p, q) of the whole-array function. -/
theorem flushed_eq (c : Dev nD) (t : Fin cfg0.N) :
    (Gen.dat0 (F := Ideal) V c).flushed 3 t = ((cfg0.win 3).blk t).view.read (Elt Ideal)
      (matmulScale (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero zeroOffsets]
  simp only [View.ld_unit_zero (S := S4000x1) zeroOffsets, View.ld_unit_zero (S := S4000x64) zeroOffsets, View.ld_unit_zero (S := S64x128) zeroOffsets]
  funext j
  obtain ⟨p, q, rfl⟩ : ∃ (p : Fin 4000) (q : Fin 128), j = ix2 p q := ⟨j 0, j 1, eq_ix2 j⟩
  show Gen.k0_pay1 (Gen.iblk0 V c 0 t) (Gen.iblk0 V c 1 t) (Gen.iblk0 V c 2 t) (ix2 p q) = matmulScale _ _ _ (((cfg0.win 3).blk t).view.emb (ix2 p q))
  refine (block_apply (Gen.iblk0 V c 0 t) (Gen.iblk0 V c 1 t) (Gen.iblk0 V c 2 t) p q).trans ?_
  obtain ⟨-, -, -, -, -, -, e0, e1⟩ := blockIndex t
  have h0 : ((((cfg0.win 3).blk t).view.emb (ix2 p q)) 0).val = t.val * 4000 + p.val := by
    show win0_3.index t (0 : Fin 2) * 4000 + 1 * p.val = _; rw [e0]; omega
  have h1 : ((((cfg0.win 3).blk t).view.emb (ix2 p q)) 1).val = q.val := by
    show win0_3.index t (1 : Fin 2) * 128 + 1 * q.val = _; rw [e1]; omega
  unfold matmulScale
  refine congrArg₂ (· * ·) (Finset.sum_congr rfl fun k _ => congrArg₂ (· * ·) ?_ ?_) ?_
  · exact featBlock_apply V c t p k _ h0 rfl
  · exact weightBlock_apply V c t k q _ rfl h1
  · exact colBlock_apply V c t p _ h0

/-- An entry of the result lies in step t's block iff each coordinate is in the block's range on its axis. -/
theorem mem_outBlock (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v18).slice (win0_3.rect t)).set ↔ _
  rw [View.set_slice_whole, Rect.mem_set_unit]
  exact Iff.rfl

/-- Each of the 25 block rows is some step's. -/
theorem blockOnto : ∀ (r : Fin 25), ∃ t : Fin cfg0.N, t.val = r.val :=
  (by decide +kernel : ∀ (r : Fin 25), ∃ t : Fin grid0.N, t.val = r.val)

/-- Row r of the result lies in the block of step r / 4000, so the blocks cover the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := blockOnto ⟨(i 0).val / 4000, by omega⟩
  have ht' : t.val = (i 0).val / 4000 := ht
  obtain ⟨-, -, -, -, -, -, e0, e1⟩ := blockIndex t
  refine ⟨t, Gen.flush0_3 t, ?_⟩
  rw [mem_outBlock]
  intro a
  match a with
  | ⟨0, _⟩ => show win0_3.index t (0 : Fin 2) * 4000 ≤ (i 0).val ∧ (i 0).val < win0_3.index t (0 : Fin 2) * 4000 + 4000; rw [e0]; omega
  | ⟨1, _⟩ => show win0_3.index t (1 : Fin 2) * 128 ≤ (i 1).val ∧ (i 1).val < win0_3.index t (1 : Fin 2) * 128 + 128; rw [e1]; omega

/-- The result array after all 25 steps is `matmulScale` of the arrays the step finds. -/
theorem final (c : Dev nD) :
    (Gen.dat0 (F := Ideal) V c).arrAt 3 cfg0.N
      = matmulScale (V c (Pipeline.arrRef spec0 0)) (V c (Pipeline.arrRef spec0 1)) (V c (Pipeline.arrRef spec0 2)) :=
  (Gen.dat0 (F := Ideal) V c).arrAt_eq_of_cover 3 _ (fun t _ => flushed_eq V c t) covered

end MatmulScale

end Cert.KernelIdeal.Rows

end
-- ==== Proof.ChainMiddle.lean ====
/-
  The kernel's buffers after the first tiled region and after the aggregation that follows it.

  The first region leaves in its output array the scaled product of layer one — row n of the features times the first weight
  matrix, scaled by node n's weight — and every other buffer as it found it. The stretch after it gathers, for every edge, the
  row of that table at the edge's source and adds the rows up at the edge's target.
-/
import proofs.«157799_j60902636257285_2_alg».proof.Proof.ChainEntry
import proofs.«157799_j60902636257285_2_alg».proof.Proof.RegionZero
import Idealize.ShloMosaic.Lib.StableHlo.Run
import Idealize.ShloMosaic.PureOps.Ideal

set_option maxRecDepth 16384

noncomputable section

namespace Cert.KernelIdeal.Chain

open Cert.KernelIdeal Cert.KernelIdeal.Facts₀ Cert.KernelIdeal.Facts Cert.KernelIdeal.Host
open Cert.KernelIdeal.Gen (W0 W1 W2 W3 W4 W5 W6 W7 W8 V3 V5 V7 hostOps0 hostOps0_1 hostOps0_2 hostOps1 hostOps2 dat0 dat1 dat2 W4_arr W4_of_ne W6_arr W6_of_ne W8_arr W8_of_ne)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first region: layer one's scaled product in the table's buffer … -/
theorem tableOne_4 : W4 m ρ c (Proc.devRef .tc main_v18) = Rows.matmulScale (m ((c : Thread nD τ).loc main_arg0)) (m ((c : Thread nD τ).loc main_arg2)) (weightColumn (m ((c : Thread nD τ).loc main_arg1))) := by
  refine (W4_arr m ρ c 3).trans ((Rows.MatmulScale.final (V3 m ρ) c).trans ?_)
  show Rows.matmulScale (W3 m ρ c (Proc.devRef .tc main_arg0)) (W3 m ρ c (Proc.devRef .tc main_arg2)) (W3 m ρ c (Proc.devRef .tc main_v15)) = _
  rw [features_3 m ρ c, matOne_3 m ρ c, column_3 m ρ c]
/- … and every other buffer as the region found it. -/
theorem sources_4 : W4 m ρ c (Proc.devRef .tc main_v3) = sources (m ((c : Thread nD τ).loc main_arg1)) :=
  (W4_of_ne m ρ c main_v3 (by decide)).trans (sources_3 m ρ c)
theorem targets_4 : W4 m ρ c (Proc.devRef .tc main_v6) = targets (m ((c : Thread nD τ).loc main_arg1)) :=
  (W4_of_ne m ρ c main_v6 (by decide)).trans (targets_3 m ρ c)
/-- The column is one of the region's own input arrays: a region leaves an input array as it found it. -/
theorem column_4 : W4 m ρ c (Proc.devRef .tc main_v15) = weightColumn (m ((c : Thread nD τ).loc main_arg1)) :=
  ((W4_arr m ρ c 2).trans (((dat0 (V3 m ρ) c).arrAt_in 2 rfl _).trans (Cert.KernelIdeal.Gen.A_eq0 (V3 m ρ) c 2))).trans (column_3 m ρ c)
theorem biasOne_4 : W4 m ρ c (Proc.devRef .tc main_v16) = shapeCast S1x128 (m ((c : Thread nD τ).loc main_arg3)) shapeCasts_S128_S1x128 :=
  (W4_of_ne m ρ c main_v16 (by decide)).trans (biasOne_3 m ρ c)
theorem biasTwo_4 : W4 m ρ c (Proc.devRef .tc main_v17) = shapeCast S1x64 (m ((c : Thread nD τ).loc main_arg5)) shapeCasts_S64_S1x64 :=
  (W4_of_ne m ρ c main_v17 (by decide)).trans (biasTwo_3 m ρ c)
theorem matTwo_4 : W4 m ρ c (Proc.devRef .tc main_arg4) = m ((c : Thread nD τ).loc main_arg4) :=
  (W4_of_ne m ρ c main_arg4 (by decide)).trans (matTwo_3 m ρ c)

/-- After the stretch that follows: layer one's aggregation over the edges … -/
theorem aggOne_5 : W5 m ρ c (Proc.devRef .tc main_v29) = aggregate128 (Rows.matmulScale (m ((c : Thread nD τ).loc main_arg0)) (m ((c : Thread nD τ).loc main_arg2)) (weightColumn (m ((c : Thread nD τ).loc main_arg1)))) (sources (m ((c : Thread nD τ).loc main_arg1))) (targets (m ((c : Thread nD τ).loc main_arg1))) := by
  show StableHlo.after hostOps1 (W4 m ρ c) (Proc.devRef .tc main_v29) = _
  after_results_simp
  rw [tableOne_4 m ρ c, sources_4 m ρ c, targets_4 m ρ c]
  rfl
/- … and the buffers the stretch does not write as they were. -/
theorem sources_5 : W5 m ρ c (Proc.devRef .tc main_v3) = sources (m ((c : Thread nD τ).loc main_arg1)) := by
  show StableHlo.after hostOps1 (W4 m ρ c) (Proc.devRef .tc main_v3) = _
  after_results_simp
  exact sources_4 m ρ c
theorem targets_5 : W5 m ρ c (Proc.devRef .tc main_v6) = targets (m ((c : Thread nD τ).loc main_arg1)) := by
  show StableHlo.after hostOps1 (W4 m ρ c) (Proc.devRef .tc main_v6) = _
  after_results_simp
  exact targets_4 m ρ c
theorem column_5 : W5 m ρ c (Proc.devRef .tc main_v15) = weightColumn (m ((c : Thread nD τ).loc main_arg1)) := by
  show StableHlo.after hostOps1 (W4 m ρ c) (Proc.devRef .tc main_v15) = _
  after_results_simp
  exact column_4 m ρ c
theorem biasOne_5 : W5 m ρ c (Proc.devRef .tc main_v16) = shapeCast S1x128 (m ((c : Thread nD τ).loc main_arg3)) shapeCasts_S128_S1x128 := by
  show StableHlo.after hostOps1 (W4 m ρ c) (Proc.devRef .tc main_v16) = _
  after_results_simp
  exact biasOne_4 m ρ c
theorem biasTwo_5 : W5 m ρ c (Proc.devRef .tc main_v17) = shapeCast S1x64 (m ((c : Thread nD τ).loc main_arg5)) shapeCasts_S64_S1x64 := by
  show StableHlo.after hostOps1 (W4 m ρ c) (Proc.devRef .tc main_v17) = _
  after_results_simp
  exact biasTwo_4 m ρ c
theorem matTwo_5 : W5 m ρ c (Proc.devRef .tc main_arg4) = m ((c : Thread nD τ).loc main_arg4) := by
  show StableHlo.after hostOps1 (W4 m ρ c) (Proc.devRef .tc main_arg4) = _
  after_results_simp
  exact matTwo_4 m ρ c

end Cert.KernelIdeal.Chain

end
-- ==== Proof.RegionOne.lean ====
/-
  The second region (hidden layer and second projection of the graph convolution), as one row-wise function.

  The region finds four arrays: the aggregated features A [100000, 128], the bias row B [1, 128], the degree
  column D [100000, 1] and the second weight matrix W [128, 64]. For node n it forms the hidden activation

      H(n, k) = max (D(n, 0) · A(n, k) + B(0, k)) 0

  and writes, at output feature j,

      (∑ k < 128, H(n, k) · W(k, j)) · D(n, 0).

  Every row of the result depends only on the same row of A and D and on the whole of B and W, so the grid may
  cut the nodes into 25 blocks of 4000 consecutive rows: point t reads rows 4000·t … 4000·t + 3999 of A and D,
  all of B and W, and writes the same rows of the result. Below: the body's stored value read at one entry of a
  block; each input block as rows of its array; the block a point writes back as the restriction of the row
  function to the point's rows; the blocks cover the array (row r is in block r / 4000); hence the array after
  the whole grid is the row function of the arrays the region finds.

  At the ideal instance a change of float format is the identity, the zero accumulator of the matrix product
  contributes nothing (the product is the plain sum) and the lower clamp is the extended reals' max with 0.
-/
import proofs.«157799_j60902636257285_2_alg».proof.Proof.Gen.KernelIdeal.Frame
import proofs.«157799_j60902636257285_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowsOne

open Cert.KernelIdeal Cert.KernelIdeal.Gen Idealize.ShloMosaic Idealize.ShloMosaic.TcCoe Idealize.ShloMosaic.ValueIdx Idealize.SL.Sem
open Idealize.ShloMosaic.Pipeline (Dat)

/-! ## The row function -/

/-- The hidden activation of node `n` at feature `k`: the aggregated feature scaled by the node's degree factor,
    plus the bias, clamped below at zero. -/
def hidden (A : S100000x128.Idx → EReal) (B : S1x128.Idx → EReal) (D : S100000x1.Idx → EReal)
    (n : Fin 100000) (k : Fin 128) : EReal :=
  max (D (ix2 n (0 : Fin 1)) * A (ix2 n k) + B (ix2 (0 : Fin 1) k)) 0

/-- The region's result: at node `i 0` and output feature `i 1`, the hidden row times the weight column, scaled
    by the node's degree factor once more. -/
def rows (A : S100000x128.Idx → EReal) (B : S1x128.Idx → EReal) (D : S100000x1.Idx → EReal)
    (W : S128x64.Idx → EReal) : S100000x64.Idx → EReal := fun i =>
  (∑ k : Fin 128, hidden A B D ⟨(i 0).val, idx2_lt0 i⟩ k * W (ix2 k ⟨(i 1).val, idx2_lt1 i⟩))
    * D (ix2 ⟨(i 0).val, idx2_lt0 i⟩ (0 : Fin 1))

/-- The row function at explicit coordinates. -/
theorem rows_apply (A : S100000x128.Idx → EReal) (B : S1x128.Idx → EReal) (D : S100000x1.Idx → EReal)
    (W : S128x64.Idx → EReal) (n : Fin 100000) (j : Fin 64) :
    rows A B D W (ix2 n j) = (∑ k : Fin 128, hidden A B D n k * W (ix2 k j)) * D (ix2 n (0 : Fin 1)) := rfl

/-! ## The body's stored value at one entry of a block -/

/-- The hidden activation at row `p`, feature `k` of one block: the degree column spread over the 128 features,
    times the aggregated block, plus the bias row spread over the 4000 rows, clamped below at the zero word,
    which is the extended real 0. -/
theorem hidden_apply (d : FVec Ideal S4000x1 .f32) (a : FVec Ideal S4000x128 .f32) (b : FVec Ideal S1x128 .f32)
    (p : Fin 4000) (k : Fin 128) :
    maximumf (addf (mulf (broadcastTo S4000x128 d broadcasts_S4000x1_S4000x128) a)
        (broadcastTo S4000x128 b broadcasts_S1x128_S4000x128))
      (broadcast S4000x128 (FloatOps.ofBits (F := Ideal) FTy.f32 0x00000000#32)) (ix2 p k)
      = max (d (ix2 p (0 : Fin 1)) * a (ix2 p k) + b (ix2 (0 : Fin 1) k)) 0 := by
  rw [maximumf_apply, addf_apply, mulf_apply, broadcast_apply,
    Cert.Lib.Column.broadcastTo_a1_ab_apply, broadcastTo_1b_ab_apply]
  exact congrArg (max _) Ideal.ofBits_zero_f32

/-- In the product [4000, 128] · [128, 64], the left operand's entry for output entry `i` and contraction
    index `c` sits in the row of `i` … -/
theorem lhs_row (i : S4000x64.Idx) (c : dot_S4000x128_S128x64_S4000x64_1_0_0_1_n_n.contr.Idx) :
    (dot_S4000x128_S128x64_S4000x64_1_0_0_1_n_n.lhsIdx i c 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

/-- … and in column `c`; -/
theorem lhs_contr (i : S4000x64.Idx) (c : dot_S4000x128_S128x64_S4000x64_1_0_0_1_n_n.contr.Idx) :
    (dot_S4000x128_S128x64_S4000x64_1_0_0_1_n_n.lhsIdx i c 1).val = (c ⟨0, by decide⟩).val :=
  dot_S4000x128_S128x64_S4000x64_1_0_0_1_n_n.lhsIdx_val_of_single rfl i c

/-- the right operand's entry sits in row `c` … -/
theorem rhs_contr (i : S4000x64.Idx) (c : dot_S4000x128_S128x64_S4000x64_1_0_0_1_n_n.contr.Idx) :
    (dot_S4000x128_S128x64_S4000x64_1_0_0_1_n_n.rhsIdx i c 0).val = (c ⟨0, by decide⟩).val :=
  dot_S4000x128_S128x64_S4000x64_1_0_0_1_n_n.rhsIdx_val_of_single rfl i c

/-- … and in the column of `i`. -/
theorem rhs_col (i : S4000x64.Idx) (c : dot_S4000x128_S128x64_S4000x64_1_0_0_1_n_n.contr.Idx) :
    (dot_S4000x128_S128x64_S4000x64_1_0_0_1_n_n.rhsIdx i c 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- The block's matrix product into a zero accumulator, at row `p` and output feature `q`: the sum over the 128
    hidden features of the products (the one-axis contraction index re-indexed by its coordinate). -/
theorem product_apply (h : FVec Ideal S4000x128 .bf16) (w : FVec Ideal S128x64 .bf16) (p : Fin 4000) (q : Fin 64) :
    matmul dot_S4000x128_S128x64_S4000x64_1_0_0_1_n_n none h w (constant S4000x64 .f32 0x00000000#32) (ix2 p q)
      = ∑ k : Fin 128, h (ix2 p k) * w (ix2 k q) := by
  refine (Ideal.matmul_constant_zero_apply dot_S4000x128_S128x64_S4000x64_1_0_0_1_n_n none h w (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q)
      ((contrEquiv1 dot_S4000x128_S128x64_S4000x64_1_0_0_1_n_n 128 rfl rfl).symm k) = ix2 p k :=
    funext fun a => Fin.ext (by
      match a with
      | ⟨0, _⟩ => exact lhs_row _ _
      | ⟨1, _⟩ => exact (lhs_contr _ _).trans hk)
  have er : dot_S4000x128_S128x64_S4000x64_1_0_0_1_n_n.rhsIdx (ix2 p q)
      ((contrEquiv1 dot_S4000x128_S128x64_S4000x64_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The body's stored value at row `p`, output feature `q` of a block, from the four blocks it loads (degree
    column `d`, aggregated features `a`, bias row `b`, weights `w`): the hidden row times the weight column,
    times the row's degree factor. -/
theorem payload_apply (d : Vec Ideal S4000x1 .f32) (a : Vec Ideal S4000x128 .f32) (b : Vec Ideal S1x128 .f32)
    (w : Vec Ideal S128x64 .f32) (p : Fin 4000) (q : Fin 64) :
    k1_pay1 (F := Ideal) d a b w (ix2 p q)
      = (∑ k : Fin 128, max (d (ix2 p (0 : Fin 1)) * a (ix2 p k) + b (ix2 (0 : Fin 1) k)) 0 * w (ix2 k q))
          * d (ix2 p (0 : Fin 1)) := by
  unfold k1_pay1
  simp only [shapeCast_self]
  refine (mulf_apply _ _ (ix2 p q)).trans ?_
  refine congrArg₂ (· * ·) ?_ (Cert.Lib.Column.broadcastTo_a1_ab_apply d broadcasts_S4000x1_S4000x64 p q)
  refine (product_apply _ _ p q).trans ?_
  refine Finset.sum_congr rfl fun k _ => ?_
  exact congrArg (· * w (ix2 k q)) (hidden_apply d a b p k)

/-- One block of the result, from input blocks that are rows 4000·τ … 4000·τ + 3999 of the node arrays (`h0`,
    `h2`) and the whole of the two small arrays (`h1`, `h3`): the body's stored value at block entry `y` is the
    row function at the array entry `i` that sits 4000·τ rows further down in the same column. -/
theorem block_rows (A : S100000x128.Idx → EReal) (B : S1x128.Idx → EReal) (D : S100000x1.Idx → EReal)
    (W : S128x64.Idx → EReal) (x0 : Vec Ideal S4000x128 .f32) (x1 : Vec Ideal S1x128 .f32)
    (x2 : Vec Ideal S4000x1 .f32) (x3 : Vec Ideal S128x64 .f32) (τ : ℕ)
    (h0 : ∀ (p : Fin 4000) (k : Fin 128) (n : Fin 100000), n.val = 4000 * τ + p.val → x0 (ix2 p k) = A (ix2 n k))
    (h1 : ∀ (u : Fin 1) (k : Fin 128), x1 (ix2 u k) = B (ix2 u k))
    (h2 : ∀ (p : Fin 4000) (u : Fin 1) (n : Fin 100000), n.val = 4000 * τ + p.val → x2 (ix2 p u) = D (ix2 n u))
    (h3 : ∀ (k : Fin 128) (q : Fin 64), x3 (ix2 k q) = W (ix2 k q))
    (y : S4000x64.Idx) (i : S100000x64.Idx) (hi0 : (i 0).val = 4000 * τ + (y 0).val) (hi1 : (i 1).val = (y 1).val) :
    k1_pay1 (F := Ideal) x2 x0 x1 x3 y = rows A B D W i := by
  obtain ⟨p, q, rfl⟩ : ∃ (p : Fin 4000) (q : Fin 64), y = ix2 p q := ⟨y 0, y 1, eq_ix2 y⟩
  obtain ⟨n, q', rfl⟩ : ∃ (n : Fin 100000) (q' : Fin 64), i = ix2 n q' := ⟨i 0, i 1, eq_ix2 i⟩
  have hn : n.val = 4000 * τ + p.val := hi0
  obtain rfl : q' = q := Fin.ext hi1
  rw [payload_apply, rows_apply, h2 p 0 n hn]
  refine congrArg (· * D (ix2 n (0 : Fin 1))) (Finset.sum_congr rfl fun k _ => ?_)
  unfold hidden
  rw [h0 p k n hn, h1 0 k, h3 k _]

/-! ## The blocks of a grid point -/

variable (V : (c : Dev nD) → (b : Ref sig .tc) → Buf (Elt Ideal) ((c : Thread nD τ).loc b))

/-- A rectangle's offset written two ways. -/
theorem origin : (![0, 0] : Fin 2 → Nat) = fun _ => 0 := funext fun a => by fin_cases a <;> rfl

/-- The index maps over the 25 grid points: the three row-tiled windows (aggregated features, degree column,
    result) are at block `t` of the rows, the two small windows (bias, weights) stay at block 0; no window moves
    along the columns. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated-feature block at point `t` is rows 4000·t … 4000·t + 3999 of its array. -/
theorem agg_block (c : Dev nD) (t : Fin cfg1.N) (p : Fin 4000) (k : Fin 128) (n : Fin 100000)
    (hn : n.val = 4000 * t.val + p.val) :
    (iblk1 V c 0 t : Vec Ideal S4000x128 .f32) (ix2 p k)
      = (V c (Pipeline.arrRef spec1 0) : S100000x128.Idx → EReal) (ix2 n k) := by
  obtain ⟨e0, e1, -⟩ := block_indices t
  unfold iblk1
  rw [View.read_apply]
  refine congrArg (V c (Pipeline.arrRef spec1 0) : S100000x128.Idx → EReal) ?_
  funext a
  apply Fin.ext
  match a with
  | ⟨0, _⟩ => show win1_0.index t (0 : Fin 2) * 4000 + 1 * p.val = n.val; rw [e0, hn]; omega
  | ⟨1, _⟩ => show win1_0.index t (1 : Fin 2) * 128 + 1 * k.val = k.val; rw [e1]; omega

/-- The bias block at every point is the whole bias row. -/
theorem bias_block (c : Dev nD) (t : Fin cfg1.N) (u : Fin 1) (k : Fin 128) :
    (iblk1 V c 1 t : Vec Ideal S1x128 .f32) (ix2 u k)
      = (V c (Pipeline.arrRef spec1 1) : S1x128.Idx → EReal) (ix2 u k) := by
  obtain ⟨-, -, e0, e1, -⟩ := block_indices t
  unfold iblk1
  rw [View.read_apply]
  refine congrArg (V c (Pipeline.arrRef spec1 1) : S1x128.Idx → EReal) ?_
  funext a
  apply Fin.ext
  match a with
  | ⟨0, _⟩ => show win1_1.index t (0 : Fin 2) * 1 + 1 * u.val = u.val; rw [e0]; omega
  | ⟨1, _⟩ => show win1_1.index t (1 : Fin 2) * 128 + 1 * k.val = k.val; rw [e1]; omega

/-- The degree-column block at point `t` is rows 4000·t … 4000·t + 3999 of the column. -/
theorem scale_block (c : Dev nD) (t : Fin cfg1.N) (p : Fin 4000) (u : Fin 1) (n : Fin 100000)
    (hn : n.val = 4000 * t.val + p.val) :
    (iblk1 V c 2 t : Vec Ideal S4000x1 .f32) (ix2 p u)
      = (V c (Pipeline.arrRef spec1 2) : S100000x1.Idx → EReal) (ix2 n u) := by
  obtain ⟨-, -, -, -, e0, e1, -⟩ := block_indices t
  unfold iblk1
  rw [View.read_apply]
  refine congrArg (V c (Pipeline.arrRef spec1 2) : S100000x1.Idx → EReal) ?_
  funext a
  apply Fin.ext
  match a with
  | ⟨0, _⟩ => show win1_2.index t (0 : Fin 2) * 4000 + 1 * p.val = n.val; rw [e0, hn]; omega
  | ⟨1, _⟩ => show win1_2.index t (1 : Fin 2) * 1 + 1 * u.val = u.val; rw [e1]; omega

/-- The weight block at every point is the whole weight matrix. -/
theorem weight_block (c : Dev nD) (t : Fin cfg1.N) (k : Fin 128) (q : Fin 64) :
    (iblk1 V c 3 t : Vec Ideal S128x64 .f32) (ix2 k q)
      = (V c (Pipeline.arrRef spec1 3) : S128x64.Idx → EReal) (ix2 k q) := by
  obtain ⟨-, -, -, -, -, -, e0, e1, -⟩ := block_indices t
  unfold iblk1
  rw [View.read_apply]
  refine congrArg (V c (Pipeline.arrRef spec1 3) : S128x64.Idx → EReal) ?_
  funext a
  apply Fin.ext
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-! ## From blocks to the array -/

/-- What point `t` writes back is the row function of the region's arrays, restricted to the point's rows:
    the body's one store covers the whole block, its loads are the whole input blocks, and entry `j` of the
    result block sits in the array 4000·t rows further down. -/
theorem flushed_eq (c : Dev nD) (t : Fin cfg1.N) :
    (dat1 (F := Ideal) V c).flushed 4 t = ((cfg1.win 4).blk t).view.read (Elt Ideal)
      (rows (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero origin]
  simp only [View.ld_unit_zero (S := S4000x128) origin, View.ld_unit_zero (S := S1x128) origin,
    View.ld_unit_zero (S := S4000x1) origin, View.ld_unit_zero (S := S128x64) origin]
  obtain ⟨-, -, -, -, -, -, -, -, e0, e1⟩ := block_indices t
  funext j
  refine block_rows (V c (Pipeline.arrRef spec1 0)) (V c (Pipeline.arrRef spec1 1)) (V c (Pipeline.arrRef spec1 2))
    (V c (Pipeline.arrRef spec1 3)) (iblk1 V c 0 t) (iblk1 V c 1 t) (iblk1 V c 2 t) (iblk1 V c 3 t) t.val
    (agg_block V c t) (bias_block V c t) (scale_block V c t) (weight_block V c t) j
    (((cfg1.win 4).blk t).view.emb j) ?_ ?_
  · show win1_4.index t (0 : Fin 2) * 4000 + 1 * (j 0).val = 4000 * t.val + (j 0).val
    rw [e0]; omega
  · show win1_4.index t (1 : Fin 2) * 64 + 1 * (j 1).val = (j 1).val
    rw [e1]; omega

/-- An entry of the result array is in point `t`'s block iff each coordinate is in the block's range. -/
theorem mem_block (t : Fin cfg1.N) (i : S100000x64.Idx) :
    i ∈ ((cfg1.win 4).blk t).view.set ↔ ∀ a : Fin 2, win1_4.index t a * S4000x64.size a ≤ (i a).val
      ∧ (i a).val < win1_4.index t a * S4000x64.size a + S4000x64.size a := by
  show i ∈ ((View.whole main_v30).slice (win1_4.rect t)).set ↔ _
  rw [View.set_slice_whole, Rect.mem_set_unit]
  exact Iff.rfl

/-- The blocks cover the array: row `r` lies in the block of point `r / 4000`, and every point writes back. -/
theorem covered (i : S100000x64.Idx) :
    ∃ t : Fin cfg1.N, (cfg1.win 4).flush t = true ∧ i ∈ ((cfg1.win 4).blk t).view.set := by
  have hN : cfg1.N = 25 := N_1
  have hi0 : (i 0).val < 100000 := idx2_lt0 i
  have hi1 : (i 1).val < 64 := idx2_lt1 i
  obtain ⟨t, ht⟩ : ∃ t : Fin cfg1.N, t.val = (i 0).val / 4000 := ⟨⟨(i 0).val / 4000, by rw [hN]; omega⟩, rfl⟩
  obtain ⟨-, -, -, -, -, -, -, -, e0, e1⟩ := block_indices t
  refine ⟨t, flush1_4 t, ?_⟩
  rw [mem_block]
  intro a
  match a with
  | ⟨0, _⟩ =>
    show win1_4.index t (0 : Fin 2) * 4000 ≤ (i 0).val ∧ (i 0).val < win1_4.index t (0 : Fin 2) * 4000 + 4000
    rw [e0, ht]; omega
  | ⟨1, _⟩ =>
    show win1_4.index t (1 : Fin 2) * 64 ≤ (i 1).val ∧ (i 1).val < win1_4.index t (1 : Fin 2) * 64 + 64
    rw [e1]; omega

/-- The region's result array after the whole grid is the row function of the arrays the region finds. -/
theorem result (c : Dev nD) :
    (dat1 (F := Ideal) V c).arrAt 4 cfg1.N
      = rows (V c (Pipeline.arrRef spec1 0)) (V c (Pipeline.arrRef spec1 1)) (V c (Pipeline.arrRef spec1 2))
          (V c (Pipeline.arrRef spec1 3)) :=
  (dat1 (F := Ideal) V c).arrAt_eq_of_cover 4 _ (fun t _ => flushed_eq V c t) covered

end Cert.KernelIdeal.RowsOne

end
-- ==== Proof.RegionTwo.lean ====
/-
  The last layer's bias-and-scale step, as one function of whole arrays.

  The step walks the 100000 rows of the aggregate in 25 blocks of 4000 rows. At each block it multiplies every
  row by that row's entry of a column of scale factors and adds one bias row, and writes the block of the result
  back whole. Here: what one block computes, entry by entry; that the block written at step t is rows
  4000 t … 4000 t + 3999 of ONE function of the whole arrays; that the 25 blocks cover every row (row r lies in
  block r / 4000); hence the array the step leaves is that function:
      result (n, j) = scale (n, 0) * aggregate (n, j) + bias (0, j).
-/
import proofs.«157799_j60902636257285_2_alg».proof.Proof.Gen.KernelIdeal.Frame
import proofs.«157799_j60902636257285_2_alg».proof.Proof.LibColumn
import Idealize.ShloMosaic.Lib.Pipeline.Value
import Idealize.ShloMosaic.Lib.ValueIdx
import Idealize.ShloMosaic.Lib.ValueLayout

noncomputable section

namespace Cert.KernelIdeal.Rows

open Cert.KernelIdeal Idealize.ShloMosaic Idealize.ShloMosaic.ValueIdx Idealize.ShloMosaic.TcCoe Idealize.SL.Sem
open Idealize.ShloMosaic.Pipeline (Dat)

/-- The bias-and-scale step on whole arrays: row n of the aggregate `A` times the n-th entry of the column `D`,
    plus the bias row `B`. -/
def biasScale (A : S100000x64.Idx → EReal) (B : S1x64.Idx → EReal) (D : S100000x1.Idx → EReal) : S100000x64.Idx → EReal :=
  fun i => D (ix2 (n0 := 100000) (n1 := 1) (i 0) 0) * A i + B (ix2 (n0 := 1) (n1 := 64) 0 (i 1))

namespace BiasScale

/-- A block is read and written from its corner: both offsets are zero. -/
theorem zeroOffsets : (![0, 0] : Fin 2 → Nat) = fun _ => 0 := funext fun a => by fin_cases a <;> rfl

/-- One block, entry by entry: row p of the aggregate's block times the p-th entry of the column's block, plus the
    bias row. (The column is spread across the 64 columns and the bias row down the 4000 rows before the
    entrywise product and sum.) -/
theorem block_apply (d : Vec Ideal S4000x1 .f32) (a : Vec Ideal S4000x64 .f32) (b : Vec Ideal S1x64 .f32)
    (p : Fin 4000) (q : Fin 64) :
    Gen.k2_pay1 (F := Ideal) d a b (ix2 p q) = d (ix2 p (0 : Fin 1)) * a (ix2 p q) + b (ix2 (0 : Fin 1) q) := by
  unfold Gen.k2_pay1
  simp only [shapeCast_self]
  rw [addf_apply, mulf_apply, Cert.Lib.Column.broadcastTo_a1_ab_apply, broadcastTo_1b_ab_apply]

/-- Where each array's block sits at step t: the aggregate, the column and the result at block row t, the bias
    at its only block. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The aggregate's block at step t is rows 4000 t … 4000 t + 3999 of the array. -/
theorem aggBlock_apply (c : Dev nD) (t : Fin cfg2.N) (p : Fin 4000) (q : Fin 64) (i : S100000x64.Idx)
    (h0 : (i 0).val = t.val * 4000 + p.val) (h1 : (i 1).val = q.val) :
    (Gen.iblk2 V c 0 t : Vec Ideal S4000x64 .f32) (ix2 p q) = (V c (Pipeline.arrRef spec2 0) : S100000x64.Idx → EReal) i := by
  obtain ⟨e0, e1, -⟩ := blockIndex t
  unfold Gen.iblk2
  rw [View.read_apply]
  refine congrArg (V c (Pipeline.arrRef spec2 0) : S100000x64.Idx → EReal) ?_
  funext a
  apply Fin.ext
  match a with
  | ⟨0, _⟩ => show win2_0.index t (0 : Fin 2) * 4000 + 1 * p.val = (i 0).val; rw [e0, h0]; omega
  | ⟨1, _⟩ => show win2_0.index t (1 : Fin 2) * 64 + 1 * q.val = (i 1).val; rw [e1, h1]; omega

/-- The column's block at step t is entries 4000 t … 4000 t + 3999 of the column. -/
theorem colBlock_apply (c : Dev nD) (t : Fin cfg2.N) (p : Fin 4000) (i : S100000x1.Idx)
    (h0 : (i 0).val = t.val * 4000 + p.val) :
    (Gen.iblk2 V c 2 t : Vec Ideal S4000x1 .f32) (ix2 p (0 : Fin 1)) = (V c (Pipeline.arrRef spec2 2) : S100000x1.Idx → EReal) i := by
  obtain ⟨-, -, -, -, e0, e1, -⟩ := blockIndex t
  unfold Gen.iblk2
  rw [View.read_apply]
  refine congrArg (V c (Pipeline.arrRef spec2 2) : S100000x1.Idx → EReal) ?_
  funext a
  apply Fin.ext
  match a with
  | ⟨0, _⟩ => show win2_2.index t (0 : Fin 2) * 4000 + 1 * p.val = (i 0).val; rw [e0, h0]; omega
  | ⟨1, _⟩ => show win2_2.index t (1 : Fin 2) * 1 + 1 * 0 = (i 1).val; rw [e1]; have h : (i 1).val < 1 := (i 1).isLt; omega

/-- The bias's block at every step is the whole bias row. -/
theorem biasBlock_apply (c : Dev nD) (t : Fin cfg2.N) (q : Fin 64) (i : S1x64.Idx) (h1 : (i 1).val = q.val) :
    (Gen.iblk2 V c 1 t : Vec Ideal S1x64 .f32) (ix2 (0 : Fin 1) q) = (V c (Pipeline.arrRef spec2 1) : S1x64.Idx → EReal) i := by
  obtain ⟨-, -, e0, e1, -⟩ := blockIndex t
  unfold Gen.iblk2
  rw [View.read_apply]
  refine congrArg (V c (Pipeline.arrRef spec2 1) : S1x64.Idx → EReal) ?_
  funext a
  apply Fin.ext
  match a with
  | ⟨0, _⟩ => show win2_1.index t (0 : Fin 2) * 1 + 1 * 0 = (i 0).val; rw [e0]; have h : (i 0).val < 1 := (i 0).isLt; omega
  | ⟨1, _⟩ => show win2_1.index t (1 : Fin 2) * 64 + 1 * q.val = (i 1).val; rw [e1, h1]; omega

/-- What step t writes back is block t of `biasScale` of the arrays the step finds: entry (p, q) of the block is
    entry (4000 t + p, q) of the whole-array function. -/
theorem flushed_eq (c : Dev nD) (t : Fin cfg2.N) :
    (Gen.dat2 (F := Ideal) V c).flushed 3 t = ((cfg2.win 3).blk t).view.read (Elt Ideal)
      (biasScale (V c (Pipeline.arrRef spec2 0)) (V c (Pipeline.arrRef spec2 1)) (V c (Pipeline.arrRef spec2 2))) := by
  show (cfg2.win 3).cut (grid2.coords t) ((Gen.dat2 V c).after 3 t) = _
  rw [Gen.after2_3]
  unfold Gen.out2_3
  rw [View.canon_unit_zero zeroOffsets]
  simp only [View.ld_unit_zero (S := S4000x1) zeroOffsets, View.ld_unit_zero (S := S4000x64) zeroOffsets, View.ld_unit_zero (S := S1x64) zeroOffsets]
  funext j
  obtain ⟨p, q, rfl⟩ : ∃ (p : Fin 4000) (q : Fin 64), j = ix2 p q := ⟨j 0, j 1, eq_ix2 j⟩
  show Gen.k2_pay1 (Gen.iblk2 V c 2 t) (Gen.iblk2 V c 0 t) (Gen.iblk2 V c 1 t) (ix2 p q) = biasScale _ _ _ (((cfg2.win 3).blk t).view.emb (ix2 p q))
  refine (block_apply (Gen.iblk2 V c 2 t) (Gen.iblk2 V c 0 t) (Gen.iblk2 V c 1 t) p q).trans ?_
  obtain ⟨-, -, -, -, -, -, e0, e1⟩ := blockIndex t
  have h0 : ((((cfg2.win 3).blk t).view.emb (ix2 p q)) 0).val = t.val * 4000 + p.val := by
    show win2_3.index t (0 : Fin 2) * 4000 + 1 * p.val = _; rw [e0]; omega
  have h1 : ((((cfg2.win 3).blk t).view.emb (ix2 p q)) 1).val = q.val := by
    show win2_3.index t (1 : Fin 2) * 64 + 1 * q.val = _; rw [e1]; omega
  unfold biasScale
  refine congrArg₂ (· + ·) (congrArg₂ (· * ·) ?_ ?_) ?_
  · exact colBlock_apply V c t p _ h0
  · exact aggBlock_apply V c t p q _ h0 h1
  · exact biasBlock_apply V c t q _ h1

/-- An entry of the result lies in step t's block iff each coordinate is in the block's range on its axis. -/
theorem mem_outBlock (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v42).slice (win2_3.rect t)).set ↔ _
  rw [View.set_slice_whole, Rect.mem_set_unit]
  exact Iff.rfl

/-- Each of the 25 block rows is some step's. -/
theorem blockOnto : ∀ (r : Fin 25), ∃ t : Fin cfg2.N, t.val = r.val :=
  (by decide +kernel : ∀ (r : Fin 25), ∃ t : Fin grid2.N, t.val = r.val)

/-- Row r of the result lies in the block of step r / 4000, so the blocks cover the array. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := blockOnto ⟨(i 0).val / 4000, by omega⟩
  have ht' : t.val = (i 0).val / 4000 := ht
  obtain ⟨-, -, -, -, -, -, e0, e1⟩ := blockIndex t
  refine ⟨t, Gen.flush2_3 t, ?_⟩
  rw [mem_outBlock]
  intro a
  match a with
  | ⟨0, _⟩ => show win2_3.index t (0 : Fin 2) * 4000 ≤ (i 0).val ∧ (i 0).val < win2_3.index t (0 : Fin 2) * 4000 + 4000; rw [e0]; omega
  | ⟨1, _⟩ => show win2_3.index t (1 : Fin 2) * 64 ≤ (i 1).val ∧ (i 1).val < win2_3.index t (1 : Fin 2) * 64 + 64; rw [e1]; omega

/-- The result array after all 25 steps is `biasScale` of the arrays the step finds. -/
theorem final (c : Dev nD) :
    (Gen.dat2 (F := Ideal) V c).arrAt 3 cfg2.N
      = biasScale (V c (Pipeline.arrRef spec2 0)) (V c (Pipeline.arrRef spec2 1)) (V c (Pipeline.arrRef spec2 2)) :=
  (Gen.dat2 (F := Ideal) V c).arrAt_eq_of_cover 3 _ (fun t _ => flushed_eq V c t) covered

end BiasScale

end Cert.KernelIdeal.Rows

end
-- ==== Proof.ChainEnd.lean ====
/-
  The kernel's buffers after the second and third tiled regions: the result.

  The second region leaves layer two's table — the hidden features (the weighted aggregation plus the first bias, clamped at
  zero) times the second weight matrix, scaled by the node's weight. The stretch after it aggregates that table over the edges.
  The third region scales the aggregation by the node's weight and adds the second bias: that array is @main's result.
-/
import proofs.«157799_j60902636257285_2_alg».proof.Proof.ChainMiddle
import proofs.«157799_j60902636257285_2_alg».proof.Proof.RegionOne
import proofs.«157799_j60902636257285_2_alg».proof.Proof.RegionTwo
import Idealize.ShloMosaic.Lib.StableHlo.Run
import Idealize.ShloMosaic.PureOps.Ideal

set_option maxRecDepth 16384

noncomputable section

namespace Cert.KernelIdeal.Chain

open Cert.KernelIdeal Cert.KernelIdeal.Facts₀ Cert.KernelIdeal.Facts Cert.KernelIdeal.Host
open Cert.KernelIdeal.Gen (W0 W1 W2 W3 W4 W5 W6 W7 W8 V3 V5 V7 hostOps0 hostOps0_1 hostOps0_2 hostOps1 hostOps2 dat0 dat1 dat2 W4_arr W4_of_ne W6_arr W6_of_ne W8_arr W8_of_ne)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the second region: layer two's table … -/
theorem tableTwo_6 : W6 m ρ c (Proc.devRef .tc main_v30) = RowsOne.rows (aggregate128 (Rows.matmulScale (m ((c : Thread nD τ).loc main_arg0)) (m ((c : Thread nD τ).loc main_arg2)) (weightColumn (m ((c : Thread nD τ).loc main_arg1)))) (sources (m ((c : Thread nD τ).loc main_arg1))) (targets (m ((c : Thread nD τ).loc main_arg1)))) (shapeCast S1x128 (m ((c : Thread nD τ).loc main_arg3)) shapeCasts_S128_S1x128) (weightColumn (m ((c : Thread nD τ).loc main_arg1))) (m ((c : Thread nD τ).loc main_arg4)) := by
  refine (W6_arr m ρ c 4).trans ((RowsOne.result (V5 m ρ) c).trans ?_)
  show RowsOne.rows (W5 m ρ c (Proc.devRef .tc main_v29)) (W5 m ρ c (Proc.devRef .tc main_v16)) (W5 m ρ c (Proc.devRef .tc main_v15)) (W5 m ρ c (Proc.devRef .tc main_arg4)) = _
  rw [aggOne_5 m ρ c, biasOne_5 m ρ c, column_5 m ρ c, matTwo_5 m ρ c]
theorem sources_6 : W6 m ρ c (Proc.devRef .tc main_v3) = sources (m ((c : Thread nD τ).loc main_arg1)) :=
  (W6_of_ne m ρ c main_v3 (by decide)).trans (sources_5 m ρ c)
theorem targets_6 : W6 m ρ c (Proc.devRef .tc main_v6) = targets (m ((c : Thread nD τ).loc main_arg1)) :=
  (W6_of_ne m ρ c main_v6 (by decide)).trans (targets_5 m ρ c)
/-- The column is again one of the region's own input arrays. -/
theorem column_6 : W6 m ρ c (Proc.devRef .tc main_v15) = weightColumn (m ((c : Thread nD τ).loc main_arg1)) :=
  ((W6_arr m ρ c 2).trans (((dat1 (V5 m ρ) c).arrAt_in 2 rfl _).trans (Cert.KernelIdeal.Gen.A_eq1 (V5 m ρ) c 2))).trans (column_5 m ρ c)
theorem biasTwo_6 : W6 m ρ c (Proc.devRef .tc main_v17) = shapeCast S1x64 (m ((c : Thread nD τ).loc main_arg5)) shapeCasts_S64_S1x64 :=
  (W6_of_ne m ρ c main_v17 (by decide)).trans (biasTwo_5 m ρ c)

/-- After the stretch that follows: layer two's aggregation over the edges … -/
theorem aggTwo_7 : W7 m ρ c (Proc.devRef .tc main_v41) = aggregate64 (RowsOne.rows (aggregate128 (Rows.matmulScale (m ((c : Thread nD τ).loc main_arg0)) (m ((c : Thread nD τ).loc main_arg2)) (weightColumn (m ((c : Thread nD τ).loc main_arg1)))) (sources (m ((c : Thread nD τ).loc main_arg1))) (targets (m ((c : Thread nD τ).loc main_arg1)))) (shapeCast S1x128 (m ((c : Thread nD τ).loc main_arg3)) shapeCasts_S128_S1x128) (weightColumn (m ((c : Thread nD τ).loc main_arg1))) (m ((c : Thread nD τ).loc main_arg4))) (sources (m ((c : Thread nD τ).loc main_arg1))) (targets (m ((c : Thread nD τ).loc main_arg1))) := by
  show StableHlo.after hostOps2 (W6 m ρ c) (Proc.devRef .tc main_v41) = _
  after_results_simp
  rw [tableTwo_6 m ρ c, sources_6 m ρ c, targets_6 m ρ c]
  rfl
theorem column_7 : W7 m ρ c (Proc.devRef .tc main_v15) = weightColumn (m ((c : Thread nD τ).loc main_arg1)) := by
  show StableHlo.after hostOps2 (W6 m ρ c) (Proc.devRef .tc main_v15) = _
  after_results_simp
  exact column_6 m ρ c
theorem biasTwo_7 : W7 m ρ c (Proc.devRef .tc main_v17) = shapeCast S1x64 (m ((c : Thread nD τ).loc main_arg5)) shapeCasts_S64_S1x64 := by
  show StableHlo.after hostOps2 (W6 m ρ c) (Proc.devRef .tc main_v17) = _
  after_results_simp
  exact biasTwo_6 m ρ c

/-- After the third region, at the end of @main: the result buffer holds the final scale and bias of layer two's
    aggregation — a term of the six arguments. -/
theorem result_8 : W8 m ρ c (Proc.devRef .tc main_v42) = Rows.biasScale (aggregate64 (RowsOne.rows (aggregate128 (Rows.matmulScale (m ((c : Thread nD τ).loc main_arg0)) (m ((c : Thread nD τ).loc main_arg2)) (weightColumn (m ((c : Thread nD τ).loc main_arg1)))) (sources (m ((c : Thread nD τ).loc main_arg1))) (targets (m ((c : Thread nD τ).loc main_arg1)))) (shapeCast S1x128 (m ((c : Thread nD τ).loc main_arg3)) shapeCasts_S128_S1x128) (weightColumn (m ((c : Thread nD τ).loc main_arg1))) (m ((c : Thread nD τ).loc main_arg4))) (sources (m ((c : Thread nD τ).loc main_arg1))) (targets (m ((c : Thread nD τ).loc main_arg1)))) (shapeCast S1x64 (m ((c : Thread nD τ).loc main_arg5)) shapeCasts_S64_S1x64) (weightColumn (m ((c : Thread nD τ).loc main_arg1))) := by
  refine (W8_arr m ρ c 3).trans ((Rows.BiasScale.final (V7 m ρ) c).trans ?_)
  show Rows.biasScale (W7 m ρ c (Proc.devRef .tc main_v41)) (W7 m ρ c (Proc.devRef .tc main_v17)) (W7 m ρ c (Proc.devRef .tc main_v15)) = _
  rw [aggTwo_7 m ρ c, biasTwo_7 m ρ c, column_7 m ρ c]

end Cert.KernelIdeal.Chain

end
-- ==== Proof.KernelValue.lean ====
/-
  The idealized kernel's run with its result as a function of the arguments.

  Every weakly fair execution of @main ends with the result buffer at the final scale and bias of layer two's aggregation of
  layer two's table, itself built from layer one's aggregation of layer one's table — all of it a term of the launch contents
  of the six arguments, which end unchanged.
-/
import proofs.«157799_j60902636257285_2_alg».proof.Proof.KernelRun
import proofs.«157799_j60902636257285_2_alg».proof.Proof.ChainEnd

set_option maxRecDepth 16384

noncomputable section

namespace Cert.KernelIdeal.KernelValue

open Cert.KernelIdeal Cert.KernelIdeal.Facts₀ Cert.KernelIdeal.Facts Cert.KernelIdeal.Host
open Idealize.ShloMosaic Idealize.ShloMosaic.TcCoe Idealize.SL.Sem

/-- The kernel's result on device `c`, as a function of the launch memory's six arguments. -/
def value (m : (ℓ : Loc nD τ sig) → Buf (Elt Ideal) ℓ) (c : Dev nD) : Buf (Elt Ideal) ((c.tc : Thread nD τ).loc main_v42) :=
  Rows.biasScale (aggregate64 (RowsOne.rows (aggregate128 (Rows.matmulScale (m ((c : Thread nD τ).loc main_arg0)) (m ((c : Thread nD τ).loc main_arg2)) (weightColumn (m ((c : Thread nD τ).loc main_arg1)))) (sources (m ((c : Thread nD τ).loc main_arg1))) (targets (m ((c : Thread nD τ).loc main_arg1)))) (shapeCast S1x128 (m ((c : Thread nD τ).loc main_arg3)) shapeCasts_S128_S1x128) (weightColumn (m ((c : Thread nD τ).loc main_arg1))) (m ((c : Thread nD τ).loc main_arg4))) (sources (m ((c : Thread nD τ).loc main_arg1))) (targets (m ((c : Thread nD τ).loc main_arg1)))) (shapeCast S1x64 (m ((c : Thread nD τ).loc main_arg5)) shapeCasts_S64_S1x64) (weightColumn (m ((c : Thread nD τ).loc main_arg1)))

/-- Every weakly fair execution of @main terminates, nothing faulting, with the result buffer at `value` and the arguments as
    launched: the run that names the last boundary's contents, read through the chain of boundaries. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v42) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (Cert.KernelIdeal.Chain.result_8 m ρ c), (h c).2⟩)
    (Cert.KernelIdeal.Run.run_result (F := Ideal) m ρ)

end Cert.KernelIdeal.KernelValue

end
-- ==== Proof.RefReads.lean ====
/-
  The reference's dense stages read at an index: a matrix product is a sum over the shared coordinate, and a bias vector
  spread over the rows reads the vector at the column.
-/
import proofs.«157799_j60902636257285_2_alg».proof.Proof.RefStages
import Idealize.ShloMosaic.Lib.Pipeline.Value
import Idealize.ShloMosaic.Lib.ValueIdx
import Idealize.ShloMosaic.PureOps.Ideal.Laws

noncomputable section

namespace Cert.ReferenceIdeal.Reads

open Cert.ReferenceIdeal Cert.ReferenceIdeal.Facts₀ Cert.ReferenceIdeal.Facts Idealize.ShloMosaic Idealize.ShloMosaic.ValueIdx

/-- Layer one's product of the features with the first weight matrix: entry (n, j) is the sum over the 64 input channels. -/
theorem productOne_apply (X : FVec Ideal S100000x64 .f32) (W : FVec Ideal S64x128 .f32) (n : Fin 100000) (j : Fin 128) :
    Host.dotGeneral (F := Ideal) dot_S100000x64_S64x128_S100000x128_1_0_0_1_n_n none X W (ix2 n j) = ∑ k : Fin 64, X (ix2 n k) * W (ix2 k j) := by
  refine (Ideal.dotGeneral_apply dot_S100000x64_S64x128_S100000x128_1_0_0_1_n_n none .single X W (ix2 n j)).trans ?_
  rw [← Equiv.sum_comp (contrEquiv1 dot_S100000x64_S64x128_S100000x128_1_0_0_1_n_n 64 rfl rfl).symm]
  refine Finset.sum_congr rfl fun k _ => ?_
  have c2 := contrEquiv1_symm_val dot_S100000x64_S64x128_S100000x128_1_0_0_1_n_n 64 rfl rfl k
  have l2 : dot_S100000x64_S64x128_S100000x128_1_0_0_1_n_n.lhsIdx (ix2 n j) ((contrEquiv1 _ 64 rfl rfl).symm k) = ix2 n k := by
    funext ax; apply Fin.ext
    match ax with
    | ⟨0, _⟩ => simp [DotDims.lhsIdx, dot_S100000x64_S64x128_S100000x128_1_0_0_1_n_n]; rfl
    | ⟨1, _⟩ => simp [DotDims.lhsIdx, dot_S100000x64_S64x128_S100000x128_1_0_0_1_n_n]; exact c2
  have r2 : dot_S100000x64_S64x128_S100000x128_1_0_0_1_n_n.rhsIdx (ix2 n j) ((contrEquiv1 _ 64 rfl rfl).symm k) = ix2 k j := by
    funext ax; apply Fin.ext
    match ax with
    | ⟨0, _⟩ => simp [DotDims.rhsIdx, dot_S100000x64_S64x128_S100000x128_1_0_0_1_n_n]; exact c2
    | ⟨1, _⟩ => simp [DotDims.rhsIdx, dot_S100000x64_S64x128_S100000x128_1_0_0_1_n_n]; rfl
  rw [l2, r2]

/-- Layer two's product of the hidden features with the second weight matrix: entry (n, j) is the sum over the 128 hidden channels. -/
theorem productTwo_apply (X : FVec Ideal S100000x128 .f32) (W : FVec Ideal S128x64 .f32) (n : Fin 100000) (j : Fin 64) :
    Host.dotGeneral (F := Ideal) dot_S100000x128_S128x64_S100000x64_1_0_0_1_n_n none X W (ix2 n j) = ∑ k : Fin 128, X (ix2 n k) * W (ix2 k j) := by
  refine (Ideal.dotGeneral_apply dot_S100000x128_S128x64_S100000x64_1_0_0_1_n_n none .single X W (ix2 n j)).trans ?_
  rw [← Equiv.sum_comp (contrEquiv1 dot_S100000x128_S128x64_S100000x64_1_0_0_1_n_n 128 rfl rfl).symm]
  refine Finset.sum_congr rfl fun k _ => ?_
  have c2 := contrEquiv1_symm_val dot_S100000x128_S128x64_S100000x64_1_0_0_1_n_n 128 rfl rfl k
  have l2 : dot_S100000x128_S128x64_S100000x64_1_0_0_1_n_n.lhsIdx (ix2 n j) ((contrEquiv1 _ 128 rfl rfl).symm k) = ix2 n k := by
    funext ax; apply Fin.ext
    match ax with
    | ⟨0, _⟩ => simp [DotDims.lhsIdx, dot_S100000x128_S128x64_S100000x64_1_0_0_1_n_n]; rfl
    | ⟨1, _⟩ => simp [DotDims.lhsIdx, dot_S100000x128_S128x64_S100000x64_1_0_0_1_n_n]; exact c2
  have r2 : dot_S100000x128_S128x64_S100000x64_1_0_0_1_n_n.rhsIdx (ix2 n j) ((contrEquiv1 _ 128 rfl rfl).symm k) = ix2 k j := by
    funext ax; apply Fin.ext
    match ax with
    | ⟨0, _⟩ => simp [DotDims.rhsIdx, dot_S100000x128_S128x64_S100000x64_1_0_0_1_n_n]; exact c2
    | ⟨1, _⟩ => simp [DotDims.rhsIdx, dot_S100000x128_S128x64_S100000x64_1_0_0_1_n_n]; rfl
  rw [l2, r2]

/-- The first bias spread over the rows reads, at (n, k), the bias at k. -/
theorem biasOne_apply (b : FVec Ideal S128 .f32) (n : Fin 100000) (k : Fin 128) :
    broadcastInDim S100000x128 ![0, 1] bcast_S1x128_S100000x128_0_1 (broadcastInDim S1x128 ![1] bcast_S128_S1x128_1 b) (ix2 n k)
      = b (ix1 k) := by
  rw [broadcastInDim_apply ![0, 1] bcast_S1x128_S100000x128_0_1 _ (ix2 n k) (ix2 (0 : Fin 1) k) (fun a => by
      match a with
      | ⟨0, _⟩ => rfl
      | ⟨1, _⟩ => rfl)]
  exact broadcastInDim_apply ![1] bcast_S128_S1x128_1 b (ix2 (0 : Fin 1) k) (ix1 k) (fun a => by
      match a with
      | ⟨0, _⟩ => rfl)

/-- The second bias spread over the rows reads, at (n, j), the bias at j. -/
theorem biasTwo_apply (b : FVec Ideal S64 .f32) (n : Fin 100000) (j : Fin 64) :
    broadcastInDim S100000x64 ![0, 1] bcast_S1x64_S100000x64_0_1 (broadcastInDim S1x64 ![1] bcast_S64_S1x64_1 b) (ix2 n j)
      = b (ix1 j) := by
  rw [broadcastInDim_apply ![0, 1] bcast_S1x64_S100000x64_0_1 _ (ix2 n j) (ix2 (0 : Fin 1) j) (fun a => by
      match a with
      | ⟨0, _⟩ => rfl
      | ⟨1, _⟩ => rfl)]
  exact broadcastInDim_apply ![1] bcast_S64_S1x64_1 b (ix2 (0 : Fin 1) j) (ix1 j) (fun a => by
      match a with
      | ⟨0, _⟩ => rfl)

end Cert.ReferenceIdeal.Reads

end
-- ==== Proof.Weights.lean ====
/-
  The node weights are nonnegative real numbers.

  A node's weight is the inverse square root of its in-degree where the degree is positive, and zero elsewhere. On the
  extended reals the inverse square root of a positive real is a positive real and that of +∞ is 0; so whatever the degree —
  finite or not — the weight is a nonnegative real. That is what lets a weight be moved across a sum: multiplication by a
  nonnegative real distributes over addition of extended reals, which multiplication by an arbitrary extended real does not.
-/
import proofs.«157799_j60902636257285_2_alg».proof.Proof.HostStages
import proofs.«157799_j60902636257285_2_alg».proof.Proof.RefStages
import Idealize.ShloMosaic.PureOps.Ideal.Laws
import Idealize.ShloMosaic.Lib.ValueIdx

noncomputable section

namespace Cert.Weights

open Idealize.ShloMosaic Idealize.ShloMosaic.ValueIdx

/-- The inverse square root where the argument is positive, zero elsewhere, is a nonnegative real whatever the argument:
    −∞ and the reals that are not positive give zero, a positive real gives the reciprocal of its square root, +∞ gives zero. -/
theorem rsqrt_where_positive (d : EReal) :
    ∃ r : ℝ, 0 ≤ r ∧ Scalar.select (Ideal.cmp .ogt d 0) (Ideal.rsqrt d) (0 : EReal) = (r : EReal) := by
  induction d using EReal.rec with
  | bot => exact ⟨0, le_refl _, by simp [Scalar.select, Ideal.cmp]⟩
  | top => exact ⟨0, le_refl _, by simp [Scalar.select, Ideal.cmp]⟩
  | coe r =>
    by_cases h : 0 < r
    · refine ⟨(Real.sqrt r)⁻¹, inv_nonneg.mpr (Real.sqrt_nonneg r), ?_⟩
      have h' : (0 : EReal) < (r : EReal) := by exact_mod_cast h
      simp [Scalar.select, Ideal.cmp, h', Ideal.rsqrt_coe, not_lt.mpr h.le, h.ne']
    · refine ⟨0, le_refl _, ?_⟩
      have h' : ¬ (0 : EReal) < (r : EReal) := by exact_mod_cast h
      simp [Scalar.select, Ideal.cmp, h']

/-- A weight read at a node: the choice between the degree's inverse square root and zero. -/
theorem weightsOf_apply (d : (⟨Cert.KernelIdeal.S100000, .f32⟩ : BufTy).Contents (Elt Ideal)) (n : Cert.KernelIdeal.S100000.Idx) :
    Cert.KernelIdeal.Host.weightsOf (F := Ideal) d n = Scalar.select (Ideal.cmp .ogt (d n) 0) (Ideal.rsqrt (d n)) (0 : EReal) := by
  unfold Cert.KernelIdeal.Host.weightsOf
  show Scalar.select (Ideal.cmp .ogt (d n) (Ideal.ofBits .f32 0x00000000#32)) (Ideal.rsqrt (d n)) (Ideal.ofBits .f32 0x00000000#32) = _
  rw [Ideal.ofBits_zero_f32]

/-- Every node's weight is a nonnegative real. -/
theorem weights_nonneg_real (E : (⟨Cert.KernelIdeal.S2x800000, .i32⟩ : BufTy).Contents (Elt Ideal)) (n : Cert.KernelIdeal.S100000.Idx) :
    ∃ r : ℝ, 0 ≤ r ∧ Cert.KernelIdeal.Host.weights (F := Ideal) E n = (r : EReal) := by
  unfold Cert.KernelIdeal.Host.weights
  rw [weightsOf_apply]
  exact rsqrt_where_positive _

/-- The two programs compute the weights, the edge sources and the edge targets by the same operations. -/
theorem weights_eq (E : (⟨Cert.KernelIdeal.S2x800000, .i32⟩ : BufTy).Contents (Elt Ideal)) :
    Cert.ReferenceIdeal.Host.weights (F := Ideal) E = Cert.KernelIdeal.Host.weights (F := Ideal) E := rfl
theorem sources_eq (E : (⟨Cert.KernelIdeal.S2x800000, .i32⟩ : BufTy).Contents (Elt Ideal)) :
    Cert.ReferenceIdeal.Host.sources (F := Ideal) E = Cert.KernelIdeal.Host.sources (F := Ideal) E := rfl
theorem targets_eq (E : (⟨Cert.KernelIdeal.S2x800000, .i32⟩ : BufTy).Contents (Elt Ideal)) :
    Cert.ReferenceIdeal.Host.targets (F := Ideal) E = Cert.KernelIdeal.Host.targets (F := Ideal) E := rfl

end Cert.Weights

end
-- ==== Proof.Bridge.lean ====
/-
  The kernel's composed value and the reference's result are one function, entry by entry.

  Write D for the node weights (a nonnegative real at every node), S and T for the edge sources and targets (the two
  programs compute all three by the same operations). The reference scales every edge's source row by D(source) · D(target)
  before adding the rows up at the target; the kernel scales the table's rows by D before the aggregation and the
  aggregated rows by D after it. The law that joins the two — the target's weight comes out of the sum over the edges,
      aggregate (D, X) (n, j) = D n · aggregate' (X · D) (n, j),
  which needs the weights to be nonnegative reals — is taken here as a hypothesis, once per layer width
  (`law128`, `law64`). Given it, the rest is reading both sides at an entry (n, j):

  * layer one's table, features · W1 scaled row-wise by D, is the reference's product times D n (`tableOne_apply`);
  * so the reference's hidden features max (aggregate (D, x · W1) + b1) 0 are the kernel's
    max (D n · aggregate' (table one) + b1) 0 (`hidden_eq`);
  * layer two's table, hidden · W2 scaled row-wise by D, is then the reference's second product times D n
    (`tableTwo_apply`);
  * and the result aggregate (D, hidden · W2) + b2 is D n · aggregate' (table two) + b2 (`value_eq`).

  No distributivity and no commutativity is used in this module: only rewriting.
-/
import proofs.«157799_j60902636257285_2_alg».proof.Proof.HostStages
import proofs.«157799_j60902636257285_2_alg».proof.Proof.RefStages
import proofs.«157799_j60902636257285_2_alg».proof.Proof.RefReads
import proofs.«157799_j60902636257285_2_alg».proof.Proof.Weights
import proofs.«157799_j60902636257285_2_alg».proof.Proof.RegionZero
import proofs.«157799_j60902636257285_2_alg».proof.Proof.RegionOne
import proofs.«157799_j60902636257285_2_alg».proof.Proof.RegionTwo
import proofs.«157799_j60902636257285_2_alg».proof.Proof.LibColumn
import Idealize.ShloMosaic.Lib.Pipeline.Value
import Idealize.ShloMosaic.Lib.ValueIdx
import Idealize.ShloMosaic.PureOps.Ideal.Laws

noncomputable section

open scoped BigOperators

namespace Cert.Bridge

open Cert.KernelIdeal Cert.KernelIdeal.Facts₀ Cert.KernelIdeal.Facts Idealize.ShloMosaic Idealize.ShloMosaic.ValueIdx

variable (E : (⟨S2x800000, .i32⟩ : BufTy).Contents (Elt Ideal))

/-- The weights as a column read at row n: the n-th weight. -/
theorem column_apply (n : Fin 100000) :
    Host.weightColumn (F := Ideal) E (ix2 n (0 : Fin 1)) = Host.weights (F := Ideal) E (ix1 n) :=
  Cert.Lib.Column.shapeCast_a_a1_apply (Host.weights (F := Ideal) E) shapeCasts_S100000_S100000x1 n 0

/-- The first bias as a one-row array read at column k: the bias at k. -/
theorem biasRowOne_apply (b1 : S128.Idx → EReal) (k : Fin 128) :
    shapeCast S1x128 b1 shapeCasts_S128_S1x128 (ix2 (0 : Fin 1) k) = b1 (ix1 k) :=
  shapeCast_apply b1 shapeCasts_S128_S1x128 _ _ (by
    rw [Shape.rowMajor_val_two, Shape.rowMajor_val_one]
    show k.val = 0 * 128 + k.val
    omega)

/-- The second bias as a one-row array read at column j: the bias at j. -/
theorem biasRowTwo_apply (b2 : S64.Idx → EReal) (j : Fin 64) :
    shapeCast S1x64 b2 shapeCasts_S64_S1x64 (ix2 (0 : Fin 1) j) = b2 (ix1 j) :=
  shapeCast_apply b2 shapeCasts_S64_S1x64 _ _ (by
    rw [Shape.rowMajor_val_two, Shape.rowMajor_val_one]
    show j.val = 0 * 64 + j.val
    omega)

/-- Layer one's table: the product of the features with the first weight matrix, each row scaled by its node's weight. -/
theorem tableOne_apply (x : FVec Ideal S100000x64 .f32) (W1 : FVec Ideal S64x128 .f32) (n : Fin 100000) (j : Fin 128) :
    Rows.matmulScale x W1 (Host.weightColumn (F := Ideal) E) (ix2 n j)
      = Host.dotGeneral (F := Ideal) Cert.ReferenceIdeal.dot_S100000x64_S64x128_S100000x128_1_0_0_1_n_n none x W1 (ix2 n j)
        * Host.weights (F := Ideal) E (ix1 n) := by
  rw [Cert.ReferenceIdeal.Reads.productOne_apply, ← column_apply]
  rfl

/-- The zero every entry of the hidden layer is compared with. -/
theorem zeroSplat128_apply (i : S100000x128.Idx) :
    broadcastInDim S100000x128 ![] Cert.ReferenceIdeal.Facts₀.bcast_S_S100000x128 (constant (F := Ideal) S_ .f32 0x00000000#32) i = 0 := by
  rw [broadcastInDim_apply ![] _ _ i ix0 (fun a => a.elim0)]
  exact Ideal.ofBits_zero_f32

section Laws

variable
  (law128 : ∀ (D : (⟨1, ![100000]⟩ : Shape).Idx → EReal) (hD : ∀ n, ∃ r : ℝ, 0 ≤ r ∧ D n = (r : EReal))
    (X Tb : (⟨2, ![100000, 128]⟩ : Shape).Idx → EReal)
    (hTb : ∀ (n : Fin 100000) (j : Fin 128), Tb (ix2 n j) = X (ix2 n j) * D (ix1 n))
    (S T : IVec ⟨1, ![900000]⟩ 32) (n : Fin 100000) (j : Fin 128),
    Cert.ReferenceIdeal.Host.aggregate128 (F := Ideal) D X S T (ix2 n j)
      = D (ix1 n) * Host.aggregate128 (F := Ideal) Tb S T (ix2 n j))
  (law64 : ∀ (D : (⟨1, ![100000]⟩ : Shape).Idx → EReal) (hD : ∀ n, ∃ r : ℝ, 0 ≤ r ∧ D n = (r : EReal))
    (X Tb : (⟨2, ![100000, 64]⟩ : Shape).Idx → EReal)
    (hTb : ∀ (n : Fin 100000) (j : Fin 64), Tb (ix2 n j) = X (ix2 n j) * D (ix1 n))
    (S T : IVec ⟨1, ![900000]⟩ 32) (n : Fin 100000) (j : Fin 64),
    Cert.ReferenceIdeal.Host.aggregate64 (F := Ideal) D X S T (ix2 n j)
      = D (ix1 n) * Host.aggregate64 (F := Ideal) Tb S T (ix2 n j))

include law128 in
/-- The reference's hidden features are the kernel's: the weight of the target node comes out of the aggregation. -/
theorem hidden_eq (x : FVec Ideal S100000x64 .f32) (W1 : FVec Ideal S64x128 .f32) (b1 : FVec Ideal S128 .f32)
    (n : Fin 100000) (k : Fin 128) :
    Cert.ReferenceIdeal.Host.hidden (F := Ideal) x E W1 b1 (ix2 n k)
      = RowsOne.hidden
          (Host.aggregate128 (F := Ideal) (Rows.matmulScale x W1 (Host.weightColumn (F := Ideal) E))
            (Host.sources (F := Ideal) E) (Host.targets (F := Ideal) E))
          (shapeCast S1x128 b1 shapeCasts_S128_S1x128) (Host.weightColumn (F := Ideal) E) n k := by
  unfold Cert.ReferenceIdeal.Host.hidden RowsOne.hidden
  rw [maximumf_apply, addf_apply, Cert.ReferenceIdeal.Reads.biasOne_apply, zeroSplat128_apply,
    Cert.Weights.weights_eq, Cert.Weights.sources_eq, Cert.Weights.targets_eq,
    law128 (Host.weights (F := Ideal) E) (Cert.Weights.weights_nonneg_real E) _
      (Rows.matmulScale x W1 (Host.weightColumn (F := Ideal) E)) (tableOne_apply E x W1) _ _ n k,
    column_apply, biasRowOne_apply]

include law128 in
/-- Layer two's table: the product of the hidden features with the second weight matrix, each row scaled by its
    node's weight. -/
theorem tableTwo_apply (x : FVec Ideal S100000x64 .f32) (W1 : FVec Ideal S64x128 .f32) (b1 : FVec Ideal S128 .f32)
    (W2 : FVec Ideal S128x64 .f32) (n : Fin 100000) (j : Fin 64) :
    RowsOne.rows
        (Host.aggregate128 (F := Ideal) (Rows.matmulScale x W1 (Host.weightColumn (F := Ideal) E))
          (Host.sources (F := Ideal) E) (Host.targets (F := Ideal) E))
        (shapeCast S1x128 b1 shapeCasts_S128_S1x128) (Host.weightColumn (F := Ideal) E) W2 (ix2 n j)
      = Host.dotGeneral (F := Ideal) (φ₁ := .f32) Cert.ReferenceIdeal.dot_S100000x128_S128x64_S100000x64_1_0_0_1_n_n none
          (Cert.ReferenceIdeal.Host.hidden (F := Ideal) x E W1 b1) W2 (ix2 n j)
        * Host.weights (F := Ideal) E (ix1 n) := by
  rw [RowsOne.rows_apply, column_apply, Cert.ReferenceIdeal.Reads.productTwo_apply]
  refine congrArg (· * Host.weights (F := Ideal) E (ix1 n)) (Finset.sum_congr rfl fun k _ => ?_)
  rw [hidden_eq E law128 x W1 b1 n k]

include law128 law64 in
/-- The kernel's composed value is the reference's result, entry by entry. -/
theorem value_eq (x : FVec Ideal S100000x64 .f32) (W1 : FVec Ideal S64x128 .f32) (b1 : FVec Ideal S128 .f32)
    (W2 : FVec Ideal S128x64 .f32) (b2 : FVec Ideal S64 .f32) :
    Rows.biasScale
        (Host.aggregate64 (F := Ideal)
          (RowsOne.rows
            (Host.aggregate128 (F := Ideal) (Rows.matmulScale x W1 (Host.weightColumn (F := Ideal) E))
              (Host.sources (F := Ideal) E) (Host.targets (F := Ideal) E))
            (shapeCast S1x128 b1 shapeCasts_S128_S1x128) (Host.weightColumn (F := Ideal) E) W2)
          (Host.sources (F := Ideal) E) (Host.targets (F := Ideal) E))
        (shapeCast S1x64 b2 shapeCasts_S64_S1x64) (Host.weightColumn (F := Ideal) E)
      = Cert.ReferenceIdeal.Host.result (F := Ideal) x E W1 b1 W2 b2 := by
  funext i
  obtain ⟨n, j, rfl⟩ : ∃ (n : Fin 100000) (j : Fin 64), i = ix2 n j := ⟨i 0, i 1, eq_ix2 i⟩
  unfold Cert.ReferenceIdeal.Host.result
  rw [addf_apply, Cert.ReferenceIdeal.Reads.biasTwo_apply,
    Cert.Weights.weights_eq, Cert.Weights.sources_eq, Cert.Weights.targets_eq,
    law64 (Host.weights (F := Ideal) E) (Cert.Weights.weights_nonneg_real E) _
      (RowsOne.rows
        (Host.aggregate128 (F := Ideal) (Rows.matmulScale x W1 (Host.weightColumn (F := Ideal) E))
          (Host.sources (F := Ideal) E) (Host.targets (F := Ideal) E))
        (shapeCast S1x128 b1 shapeCasts_S128_S1x128) (Host.weightColumn (F := Ideal) E) W2)
      (tableTwo_apply E law128 x W1 b1 W2) _ _ n j,
    ← column_apply E n, ← biasRowTwo_apply b2 j]
  rfl

end Laws

end Cert.Bridge

end
-- ==== Proof.LibRowGather.lean ====
/-
  Index facts about `stablehlo.gather` and `stablehlo.scatter` at the dimension numbers that row indexing of a
  table by an integer vector lowers to: the integer vector of length M is held as an M-by-1 array of start indices
  (the index vector's axis is axis 1, of size one). A gather of rows of an N-by-K table, a gather of entries of a
  length-N vector, and the operand row that an update row of a row scatter lands on.
-/
import Idealize.ShloMosaic.PureOps.ShapeOps
import Idealize.ShloMosaic.PureOps.Dims
import Idealize.ShloMosaic.Lib.ValueIdx
import Idealize.ShloMosaic.PureOps.Ideal

noncomputable section

namespace Cert.Lib.RowGather

open Idealize.ShloMosaic Idealize.ShloMosaic.ValueIdx

variable {α : Type}

/-! ## Gather of rows of an N-by-K table -/

/-- The dimension numbers of a row gather: operand `[N, K]`, start indices `[M, 1]`, result `[M, K]`; the start
    index names operand axis 0, which is collapsed (slice size one), and the result's axis 1 is the offset axis that
    runs over the whole of operand axis 1 (slice size `K`). Their conditions `wf` are decided on literal shapes. -/
abbrev rowDims (N M K : Nat)
    (wf : GatherDims.WF ⟨2, ![N, K]⟩ ⟨2, ![M, 1]⟩ ⟨2, ![M, K]⟩ [1] [0] [] [0] [] 1 ![1, K]) :
    GatherDims ⟨2, ![N, K]⟩ ⟨2, ![M, 1]⟩ ⟨2, ![M, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(e, j)`: the operand at the row given by start index `idx[e, 0]`, read signed and
    clamped into `[0, N − 1]`, and at column `j`. -/
theorem gather_row_apply {N M K w : Nat} (hN : 0 < N)
    (wf : GatherDims.WF ⟨2, ![N, K]⟩ ⟨2, ![M, 1]⟩ ⟨2, ![M, K]⟩ [1] [0] [] [0] [] 1 ![1, K])
    (x : (⟨2, ![N, K]⟩ : Shape).Idx → α) (idx : IVec ⟨2, ![M, 1]⟩ w) (e : Fin M) (j : Fin K) :
    Host.gather (rowDims N M K wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowDims N M K wf).start (ix2 e j) idx 0 + (rowDims N M K wf).batchCoord (ix2 e j) 0
      + (rowDims N M K wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M K wf).startIndexMap from List.mem_singleton.mpr rfl)]
    have hsi : (rowDims N M K wf).siIdx (ix2 e j) ⟨List.idxOf (0 : Fin 2) (rowDims N M K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M K wf).start (ix2 e j) idx 1 + (rowDims N M K wf).batchCoord (ix2 e j) 1
      + (rowDims N M K wf).offCoord (ix2 e j) 1 = j.val
    rw [GatherDims.batchCoord_eq_zero _ _ _ List.not_mem_nil]
    unfold GatherDims.start
    rw [dif_neg (show ¬ (1 : Fin 2) ∈ (rowDims N M K wf).startIndexMap from
      fun h => Nat.one_ne_zero (congrArg Fin.val (List.mem_singleton.mp h)))]
    simp only [Nat.add_zero, Nat.zero_add]
    rfl

/-! ## Gather of entries of a length-N vector -/

/-- The dimension numbers of an entry gather: operand `[N]`, start indices `[M, 1]`, result `[M]`; the start index
    names operand axis 0, which is collapsed (slice size one), and the result has no offset axis. Their conditions
    `wf` are decided on literal shapes. -/
abbrev entryDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at the start index `idx[e, 0]`, read signed and clamped into
    `[0, N − 1]` (the same clamped index as the row gather's). -/
theorem gather_entry_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The operand row an update row of a row scatter lands on -/

/-- The dimension numbers of a row scatter: operand `[N, K]`, scatter indices `[M, 1]`, updates `[M, K]`; the
    scatter index names operand axis 0, which is an inserted window axis, and the updates' axis 1 is the window axis
    that runs over operand axis 1. Their conditions `wf` are decided on literal shapes. -/
abbrev rowScatterDims (N M K : Nat)
    (wf : ScatterDims.WF ⟨2, ![N, K]⟩ ⟨2, ![M, 1]⟩ ⟨2, ![M, K]⟩ [1] [0] [0] 1) :
    ScatterDims ⟨2, ![N, K]⟩ ⟨2, ![M, 1]⟩ ⟨2, ![M, K]⟩ where
  updateWindowDims := [1]
  insertedWindowDims := [0]
  scatterDimsToOperandDims := [0]
  indexVectorDim := 1
  wf := wf

/-- On operand axis 0 a row scatter's start is the scatter index `idx[e, 0]` read signed. -/
theorem rowScatter_start_zero {N M K w : Nat}
    (wf : ScatterDims.WF ⟨2, ![N, K]⟩ ⟨2, ![M, 1]⟩ ⟨2, ![M, K]⟩ [1] [0] [0] 1)
    (idx : IVec ⟨2, ![M, 1]⟩ w) (e : Fin M) (j : Fin K) :
    (rowScatterDims N M K wf).start (ix2 e j) idx 0 = (idx (ix2 e (0 : Fin 1))).toInt := by
  unfold ScatterDims.start
  rw [dif_pos (show (0 : Fin 2) ∈ (rowScatterDims N M K wf).scatterDimsToOperandDims from List.mem_singleton.mpr rfl)]
  have hsi : (rowScatterDims N M K wf).siIdx (ix2 e j)
      ⟨List.idxOf (0 : Fin 2) (rowScatterDims N M K wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1 a row scatter's start is zero: the scatter index does not name that axis. -/
theorem rowScatter_start_one {N M K w : Nat}
    (wf : ScatterDims.WF ⟨2, ![N, K]⟩ ⟨2, ![M, 1]⟩ ⟨2, ![M, K]⟩ [1] [0] [0] 1)
    (idx : IVec ⟨2, ![M, 1]⟩ w) (y : (⟨2, ![M, K]⟩ : Shape).Idx) :
    (rowScatterDims N M K wf).start y idx 1 = 0 := by
  unfold ScatterDims.start
  rw [dif_neg (show ¬ (1 : Fin 2) ∈ (rowScatterDims N M K wf).scatterDimsToOperandDims from
    fun h => Nat.one_ne_zero (congrArg Fin.val (List.mem_singleton.mp h)))]

/-- On operand axis 0, an inserted axis, a row scatter's window coordinate is zero. -/
theorem rowScatter_window_zero {N M K : Nat}
    (wf : ScatterDims.WF ⟨2, ![N, K]⟩ ⟨2, ![M, 1]⟩ ⟨2, ![M, K]⟩ [1] [0] [0] 1)
    (y : (⟨2, ![M, K]⟩ : Shape).Idx) :
    (rowScatterDims N M K wf).window y 0 = 0 := by
  unfold ScatterDims.window
  rw [dif_neg]
  intro h
  have h2 : (0 : Fin 2) ∉ (rowScatterDims N M K wf).insertedWindowDims := by
    simpa [ScatterDims.sKept, Shape.kept, List.mem_filter] using h
  exact h2 (List.mem_singleton.mpr rfl)

/-- On operand axis 1 a row scatter's window coordinate is the update's column. -/
theorem rowScatter_window_one {N M K : Nat}
    (wf : ScatterDims.WF ⟨2, ![N, K]⟩ ⟨2, ![M, 1]⟩ ⟨2, ![M, K]⟩ [1] [0] [0] 1)
    (e : Fin M) (j : Fin K) :
    (rowScatterDims N M K wf).window (ix2 e j) 1 = j.val := by
  unfold ScatterDims.window
  rw [dif_pos]
  · rfl
  · simp [ScatterDims.sKept, Shape.kept, List.mem_filter]

/-- THE ROW AN UPDATE ROW LANDS ON: if update element `(e, j)` of a row scatter lands at operand index `i`, then the
    scatter index `idx[e, 0]`, read signed, is exactly `i`'s row, and `i`'s column is `j`. (The scatter does not clamp:
    an update whose row index is outside `[0, N)` lands nowhere.) -/
theorem rowScatter_resultIdx_eq_some {N M K w : Nat}
    (wf : ScatterDims.WF ⟨2, ![N, K]⟩ ⟨2, ![M, 1]⟩ ⟨2, ![M, K]⟩ [1] [0] [0] 1)
    (idx : IVec ⟨2, ![M, 1]⟩ w) (e : Fin M) (j : Fin K) (i : (⟨2, ![N, K]⟩ : Shape).Idx)
    (h : (rowScatterDims N M K wf).resultIdx? (ix2 e j) idx = some i) :
    (idx (ix2 e (0 : Fin 1))).toInt = ((i 0).val : ℤ) ∧ (i 1).val = j.val := by
  unfold ScatterDims.resultIdx? at h
  split at h
  · rename_i hall
    have hi := Option.some.inj h
    subst hi
    have h0 := hall 0
    have h1 := hall 1
    rw [rowScatter_start_zero, rowScatter_window_zero] at h0
    rw [rowScatter_start_one, rowScatter_window_one] at h1
    refine ⟨?_, ?_⟩
    · show _ = (((rowScatterDims N M K wf).start (ix2 e j) idx 0 + ((rowScatterDims N M K wf).window (ix2 e j) 0 : ℕ)).toNat : ℤ)
      rw [rowScatter_start_zero, rowScatter_window_zero]
      omega
    · show ((rowScatterDims N M K wf).start (ix2 e j) idx 1 + ((rowScatterDims N M K wf).window (ix2 e j) 1 : ℕ)).toNat = j.val
      rw [rowScatter_start_one, rowScatter_window_one]
      omega
  · exact absurd h (by simp)

/-- The corollary for the gathers above: under the same hypothesis the clamped gather index of update row `e` is the
    operand row `i 0` itself (a row index in `[0, N)` is unchanged by reading it signed and clamping it into
    `[0, N − 1]`). Stated so that it rewrites the index expression of `gather_row_apply` / `gather_entry_apply`. -/
theorem rowScatter_clamp_eq {N M K w : Nat} (hN : 0 < N)
    (wf : ScatterDims.WF ⟨2, ![N, K]⟩ ⟨2, ![M, 1]⟩ ⟨2, ![M, K]⟩ [1] [0] [0] 1)
    (idx : IVec ⟨2, ![M, 1]⟩ w) (e : Fin M) (j : Fin K) (i : (⟨2, ![N, K]⟩ : Shape).Idx)
    (h : (rowScatterDims N M K wf).resultIdx? (ix2 e j) idx = some i) :
    (⟨min (idx (ix2 e (0 : Fin 1))).toInt.toNat (N - 1), by omega⟩ : Fin N) = i 0 := by
  have h0 := (rowScatter_resultIdx_eq_some wf idx e j i h).1
  have hlt : (i 0).val < N := idx2_lt0 i
  refine Fin.ext ?_
  show min (idx (ix2 e (0 : Fin 1))).toInt.toNat (N - 1) = (i 0).val
  rw [h0]
  omega

end Cert.Lib.RowGather

end
-- ==== Proof.LibScatterScale.lean ====
/-
  A nonnegative real factor and the exact scatter-add. On the extended reals multiplication does not distribute over
  addition in general (`⊤ + ⊥ = ⊥`, yet `(-1) * ⊤ + (-1) * ⊥ = ⊥ + ⊤ = ⊥` while `(-1) * (⊤ + ⊥) = ⊤`); it does
  when the factor is a nonnegative real. So such a factor passes through a finite sum, and through a scatter-add whose
  operand is zero at the element read: the element is the sum of the updates that land on it.
-/
import Idealize.ShloMosaic.PureOps.Dims
import Idealize.ShloMosaic.PureOps.Ideal

noncomputable section

open scoped BigOperators

namespace Cert.Lib.ScatterScale

open Idealize.ShloMosaic

/-- A nonnegative real factor distributes over a finite sum of extended reals. -/
theorem mul_sum_of_nonneg_real {ι : Type*} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- THE SCATTER-ADD FROM ZERO COMMUTES WITH A NONNEGATIVE REAL FACTOR: if the operand is zero at element `i` and every
    update that lands on `i` is `r` times the corresponding update of a second scatter-add at the same indices, then
    the first result at `i` is `r` times the second's. (Only the updates landing on `i` matter.) -/
theorem hostScatterAdd_scale {s si su : Shape} (d : ScatterDims s si su) {w : Nat} (z : s.Idx → EReal)
    (idx : IVec si w) (U U' : su.Idx → EReal) (i : s.Idx) (r : ℝ) (hr : 0 ≤ r) (hz : z i = 0)
    (h : ∀ j, d.resultIdx? j idx = some i → U' j = (r : EReal) * U j) :
    Ideal.hostScatterAdd d z idx U' i = (r : EReal) * Ideal.hostScatterAdd d z idx U i := by
  show z i + ∑ j ∈ Finset.univ.filter (fun j => d.resultIdx? j idx = some i), U' j
    = (r : EReal) * (z i + ∑ j ∈ Finset.univ.filter (fun j => d.resultIdx? j idx = some i), U j)
  rw [hz, zero_add, zero_add, mul_sum_of_nonneg_real _ _ r hr]
  exact Finset.sum_congr rfl fun j hj => h j (Finset.mem_filter.mp hj).2

end Cert.Lib.ScatterScale

end
-- ==== Proof.LayerLaw.lean ====
/-
  The aggregation law. The reference's layer aggregation gives every edge the product of its endpoints' weights,
  scales the source's row of an f32 table X by it and adds the rows up at the edge's target; the kernel's aggregation adds
  up the source's rows of a table Tb whose row g is already X's row g times the weight of g. When every weight is a
  nonnegative real the two agree up to the target's weight: at node n,

      reference (n, j) = D n * kernel (n, j).

  Both sides are a scatter-add from zero at the same indices, so both are sums over the same set of updates: the edges
  whose target, read signed and unclamped, is n. On such an edge the target is a node number already, so indexing from
  the end leaves it alone and a gather at it reads node n; the reference's update is (D g * D n) * X (g, j) and the
  kernel's is X (g, j) * D g with the same source node g, and D n, a nonnegative real, passes through the sum.
-/
import proofs.«157799_j60902636257285_2_alg».proof.Proof.HostStages
import proofs.«157799_j60902636257285_2_alg».proof.Proof.RefStages
import proofs.«157799_j60902636257285_2_alg».proof.Proof.LibRowGather
import proofs.«157799_j60902636257285_2_alg».proof.Proof.LibScatterScale
import Idealize.ShloMosaic.Lib.Pipeline.Value
import Idealize.ShloMosaic.Lib.IdealHost
import Idealize.ShloMosaic.PureOps.Ideal.Laws

noncomputable section

namespace Cert.LayerLaw

open Idealize.ShloMosaic Idealize.ShloMosaic.ValueIdx Cert.Lib.RowGather Cert.Lib.ScatterScale

/-! ## Columns of indices, and the node an index names -/

/-- A length-`M` vector broadcast to an `M`-by-1 column reads, at `(e, u)`, the vector at `e`. -/
theorem column_apply {α : Type} {M : Nat} (h : (⟨1, ![M]⟩ : Shape).BroadcastsInDim ⟨2, ![M, 1]⟩ ![0])
    (J : (⟨1, ![M]⟩ : Shape).Idx → α) (e : Fin M) (u : Fin 1) :
    broadcastInDim ⟨2, ![M, 1]⟩ ![0] h J (ix2 e u) = J (ix1 e) := by
  refine broadcastInDim_apply _ h J _ (ix1 e) fun a => ?_
  match a with
  | ⟨0, _⟩ =>
    show e.val = if M = 1 then 0 else e.val
    split
    · have := e.isLt; omega
    · rfl

/-- An `M`-by-1 column broadcast across `K` columns reads, at `(e, j)`, the column at row `e`. -/
theorem spread_apply {α : Type} {M K : Nat} (h : (⟨2, ![M, 1]⟩ : Shape).BroadcastsInDim ⟨2, ![M, K]⟩ ![0, 1])
    (v : (⟨2, ![M, 1]⟩ : Shape).Idx → α) (e : Fin M) (j : Fin K) :
    broadcastInDim ⟨2, ![M, K]⟩ ![0, 1] h v (ix2 e j) = v (ix2 e (0 : Fin 1)) := by
  refine broadcastInDim_apply _ h v _ (ix2 e (0 : Fin 1)) fun a => ?_
  match a with
  | ⟨0, _⟩ =>
    show e.val = if M = 1 then 0 else e.val
    split
    · have := e.isLt; omega
    · rfl
  | ⟨1, _⟩ => rfl

/-- A 32-bit index read signed and clamped into `[0, 100000 − 1]`: the node a gather at that index reads. -/
def node (b : BitVec 32) : Fin 100000 := ⟨min b.toInt.toNat (100000 - 1), by omega⟩

/-- An index whose signed value is a node number names that node. -/
theorem node_eq_of_toInt {b : BitVec 32} {n : Fin 100000} (h : b.toInt = (n.val : ℤ)) : node b = n := by
  refine Fin.ext ?_
  show min b.toInt.toNat (100000 - 1) = n.val
  have := n.isLt
  rw [h]; omega

/-- The column of indices at `(e, u)` is the vector of indices at `e`. -/
theorem asColumn_apply (J : IVec ⟨1, ![900000]⟩ 32) (e : Fin 900000) (u : Fin 1) :
    Cert.KernelIdeal.Host.asColumn (F := Ideal) J (ix2 e u) = J (ix1 e) :=
  column_apply _ J e u

/-- Indexing from the end leaves a nonnegative index alone. -/
theorem fromEnd_of_nonneg (J : IVec ⟨1, ![900000]⟩ 32) (e : Fin 900000) (h : 0 ≤ (J (ix1 e)).toInt) :
    Cert.KernelIdeal.Host.fromEnd (F := Ideal) J (ix1 e) = J (ix1 e) := by
  have hs : (J (ix1 e)).slt 0#32 = false := by
    rw [BitVec.slt_eq_decide, BitVec.toInt_zero]
    exact decide_eq_false (by omega)
  have hc : IntOp.cmpi .slt (J (ix1 e)) 0#32 = 0#1 := by
    show BitVec.ofBool ((J (ix1 e)).slt 0#32) = 0#1
    rw [hs]; rfl
  show Scalar.select (IntOp.cmpi .slt (J (ix1 e)) 0#32) _ (J (ix1 e)) = J (ix1 e)
  rw [hc, select_zero]

/-- A row gather at a column of indices reads, at `(e, j)`, the row of the node that index `e` names. -/
theorem rowGather_node {α : Type} {K : Nat}
    (wf : GatherDims.WF ⟨2, ![100000, K]⟩ ⟨2, ![900000, 1]⟩ ⟨2, ![900000, K]⟩ [1] [0] [] [0] [] 1 ![1, K])
    (x : (⟨2, ![100000, K]⟩ : Shape).Idx → α) (J : IVec ⟨1, ![900000]⟩ 32) (e : Fin 900000) (j : Fin K) :
    Host.gather (rowDims 100000 900000 K wf) x (Cert.KernelIdeal.Host.asColumn (F := Ideal) J) (ix2 e j)
      = x (ix2 (node (J (ix1 e))) j) := by
  rw [gather_row_apply (by norm_num)]
  refine congrArg x (congrArg (fun a => ix2 a j) (Fin.ext ?_))
  show min (Cert.KernelIdeal.Host.asColumn (F := Ideal) J (ix2 e (0 : Fin 1))).toInt.toNat (100000 - 1)
    = min (J (ix1 e)).toInt.toNat (100000 - 1)
  rw [asColumn_apply]

/-- An entry gather at a column of indices reads, at `e`, the entry of the node that index `e` names. -/
theorem entryGather_node {α : Type}
    (wf : GatherDims.WF ⟨1, ![100000]⟩ ⟨2, ![900000, 1]⟩ ⟨1, ![900000]⟩ [] [0] [] [0] [] 1 ![1])
    (x : (⟨1, ![100000]⟩ : Shape).Idx → α) (J : IVec ⟨1, ![900000]⟩ 32) (e : Fin 900000) :
    Host.gather (entryDims 100000 900000 wf) x (Cert.KernelIdeal.Host.asColumn (F := Ideal) J) (ix1 e)
      = x (ix1 (node (J (ix1 e)))) := by
  rw [gather_entry_apply (by norm_num)]
  refine congrArg x (congrArg (fun a => ix1 a) (Fin.ext ?_))
  show min (Cert.KernelIdeal.Host.asColumn (F := Ideal) J (ix2 e (0 : Fin 1))).toInt.toNat (100000 - 1)
    = min (J (ix1 e)).toInt.toNat (100000 - 1)
  rw [asColumn_apply]

/-- An edge's factor is the weight of the node its source names times the weight of the node its target names. -/
theorem edgeFactor_apply (D : (⟨1, ![100000]⟩ : Shape).Idx → EReal) (S T : IVec ⟨1, ![900000]⟩ 32) (e : Fin 900000) :
    Cert.ReferenceIdeal.Host.edgeFactor (F := Ideal) D S T (ix1 e)
      = D (ix1 (node (Cert.KernelIdeal.Host.fromEnd (F := Ideal) S (ix1 e))))
        * D (ix1 (node (Cert.KernelIdeal.Host.fromEnd (F := Ideal) T (ix1 e)))) := by
  show Host.gather (entryDims 100000 900000 _) D
        (Cert.KernelIdeal.Host.asColumn (F := Ideal) (Cert.KernelIdeal.Host.fromEnd (F := Ideal) S)) (ix1 e)
      * Host.gather (entryDims 100000 900000 _) D
        (Cert.KernelIdeal.Host.asColumn (F := Ideal) (Cert.KernelIdeal.Host.fromEnd (F := Ideal) T)) (ix1 e) = _
  rw [entryGather_node, entryGather_node]

/-! ## One update of the two scatter-adds -/

/-- ONE UPDATE: on an edge `e` whose update lands on row `n`, the reference's update at column `j` — the edge's
    factor times the source's row of `X` — is `D n` times the kernel's, the source's row of `Tb`. -/
theorem update_scale {K : Nat}
    (wfS : ScatterDims.WF ⟨2, ![100000, K]⟩ ⟨2, ![900000, 1]⟩ ⟨2, ![900000, K]⟩ [1] [0] [0] 1)
    (wfG : GatherDims.WF ⟨2, ![100000, K]⟩ ⟨2, ![900000, 1]⟩ ⟨2, ![900000, K]⟩ [1] [0] [] [0] [] 1 ![1, K])
    (D : (⟨1, ![100000]⟩ : Shape).Idx → EReal) (X Tb : (⟨2, ![100000, K]⟩ : Shape).Idx → EReal)
    (hTb : ∀ (n : Fin 100000) (j : Fin K), Tb (ix2 n j) = X (ix2 n j) * D (ix1 n))
    (S T : IVec ⟨1, ![900000]⟩ 32) (n : Fin 100000) (j : Fin K) (e : Fin 900000) (j' : Fin K)
    (hy : (rowScatterDims 100000 900000 K wfS).resultIdx? (ix2 e j') (Cert.KernelIdeal.Host.asColumn (F := Ideal) T)
      = some (ix2 n j)) :
    Cert.ReferenceIdeal.Host.edgeFactor (F := Ideal) D S T (ix1 e)
        * Host.gather (rowDims 100000 900000 K wfG) X
            (Cert.KernelIdeal.Host.asColumn (F := Ideal) (Cert.KernelIdeal.Host.fromEnd (F := Ideal) S)) (ix2 e j')
      = D (ix1 n) * Host.gather (rowDims 100000 900000 K wfG) Tb
            (Cert.KernelIdeal.Host.asColumn (F := Ideal) (Cert.KernelIdeal.Host.fromEnd (F := Ideal) S)) (ix2 e j') := by
  obtain ⟨h0, -⟩ := rowScatter_resultIdx_eq_some wfS _ e j' (ix2 n j) hy
  rw [asColumn_apply] at h0
  have h0' : (T (ix1 e)).toInt = (n.val : ℤ) := h0
  have hT : node (Cert.KernelIdeal.Host.fromEnd (F := Ideal) T (ix1 e)) = n := by
    rw [fromEnd_of_nonneg T e (by rw [h0']; exact Int.natCast_nonneg _)]
    exact node_eq_of_toInt h0'
  rw [edgeFactor_apply, rowGather_node, rowGather_node, hT, hTb]
  rw [mul_comm (D _) (D (ix1 n)), mul_assoc, mul_comm (D _) (X _)]

/-! ## The scatter-add from zero and a nonnegative real factor -/

/-- THE SCATTER-ADD FROM ZERO AND A NONNEGATIVE REAL FACTOR, for the host's scatter-add itself and two operands that
    are both zero at the element read: if every update of the first that lands on `i` is `r` times the second's, the
    first result at `i` is `r` times the second's. -/
theorem scatterAdd_scale {s si su : Shape} (d : ScatterDims s si su) {w : Nat} (z z' : s.Idx → EReal)
    (idx : IVec si w) (U U' : su.Idx → EReal) (i : s.Idx) (r : ℝ) (hr : 0 ≤ r) (hz : z i = 0) (hz' : z' i = 0)
    (h : ∀ j, d.resultIdx? j idx = some i → U' j = (r : EReal) * U j) :
    Host.scatterAdd (F := Ideal) (φ := .f32) d z' idx U' i
      = (r : EReal) * Host.scatterAdd (F := Ideal) (φ := .f32) d z idx U i := by
  show z' i + ∑ j ∈ Finset.univ.filter (fun j => d.resultIdx? j idx = some i), U' j
    = (r : EReal) * (z i + ∑ j ∈ Finset.univ.filter (fun j => d.resultIdx? j idx = some i), U j)
  rw [hz, hz', zero_add, zero_add, mul_sum_of_nonneg_real _ _ r hr]
  exact Finset.sum_congr rfl fun j hj => h j (Finset.mem_filter.mp hj).2

/-- The splat of the f32 zero pattern reads zero everywhere. -/
theorem zero_apply {T : Shape} (h : (⟨0, ![]⟩ : Shape).BroadcastsInDim T ![]) (i : T.Idx) :
    broadcastInDim T ![] h (constant (F := Ideal) ⟨0, ![]⟩ .f32 0x00000000#32) i = 0 := by
  rw [broadcastInDim_scalar_apply, constant_apply, Ideal.ofBits_zero_f32]

/-! ## The law, at 128 and at 64 columns -/

/-- THE LAW AT 128 COLUMNS: with nonnegative real weights `D` and `Tb`'s row `g` equal to `X`'s row `g` times `D g`,
    the reference's aggregation at `(n, j)` is `D n` times the kernel's. -/
theorem aggregate128_law (D : (⟨1, ![100000]⟩ : Shape).Idx → EReal) (hD : ∀ n, ∃ r : ℝ, 0 ≤ r ∧ D n = (r : EReal))
    (X Tb : (⟨2, ![100000, 128]⟩ : Shape).Idx → EReal)
    (hTb : ∀ (n : Fin 100000) (j : Fin 128), Tb (ix2 n j) = X (ix2 n j) * D (ix1 n))
    (S T : IVec ⟨1, ![900000]⟩ 32) (n : Fin 100000) (j : Fin 128) :
    Cert.ReferenceIdeal.Host.aggregate128 (F := Ideal) D X S T (ix2 n j)
      = D (ix1 n) * Cert.KernelIdeal.Host.aggregate128 (F := Ideal) Tb S T (ix2 n j) := by
  obtain ⟨r, hr, hDn⟩ := hD (ix1 n)
  have wfS : ScatterDims.WF ⟨2, ![100000, 128]⟩ ⟨2, ![900000, 1]⟩ ⟨2, ![900000, 128]⟩ [1] [0] [0] 1 :=
    Cert.KernelIdeal.scatter_S100000x128_S900000x1_S900000x128_1_0_0_1.wf
  have wfG : GatherDims.WF ⟨2, ![100000, 128]⟩ ⟨2, ![900000, 1]⟩ ⟨2, ![900000, 128]⟩ [1] [0] [] [0] [] 1 ![1, 128] :=
    Cert.KernelIdeal.gather_S100000x128_S900000x1_S900000x128_1_0_n_n_0_1_1128.wf
  rw [hDn]
  refine scatterAdd_scale (rowScatterDims 100000 900000 128 wfS) _ _
    (Cert.KernelIdeal.Host.asColumn (F := Ideal) T) _ _ (ix2 n j) r hr (zero_apply _ _) (zero_apply _ _) ?_
  intro y hy
  obtain ⟨e, j', rfl⟩ : ∃ e j', y = ix2 e j' := ⟨y 0, y 1, eq_ix2 y⟩
  rw [← hDn]
  show broadcastInDim ⟨2, ![900000, 128]⟩ ![0, 1] _ (broadcastInDim ⟨2, ![900000, 1]⟩ ![0] _
        (Cert.ReferenceIdeal.Host.edgeFactor (F := Ideal) D S T)) (ix2 e j')
      * Host.gather (rowDims 100000 900000 128 wfG) X
          (Cert.KernelIdeal.Host.asColumn (F := Ideal) (Cert.KernelIdeal.Host.fromEnd (F := Ideal) S)) (ix2 e j')
    = D (ix1 n) * Host.gather (rowDims 100000 900000 128 wfG) Tb
          (Cert.KernelIdeal.Host.asColumn (F := Ideal) (Cert.KernelIdeal.Host.fromEnd (F := Ideal) S)) (ix2 e j')
  rw [spread_apply, column_apply]
  exact update_scale wfS wfG D X Tb hTb S T n j e j' hy

/-- THE LAW AT 64 COLUMNS: with nonnegative real weights `D` and `Tb`'s row `g` equal to `X`'s row `g` times `D g`,
    the reference's aggregation at `(n, j)` is `D n` times the kernel's. -/
theorem aggregate64_law (D : (⟨1, ![100000]⟩ : Shape).Idx → EReal) (hD : ∀ n, ∃ r : ℝ, 0 ≤ r ∧ D n = (r : EReal))
    (X Tb : (⟨2, ![100000, 64]⟩ : Shape).Idx → EReal)
    (hTb : ∀ (n : Fin 100000) (j : Fin 64), Tb (ix2 n j) = X (ix2 n j) * D (ix1 n))
    (S T : IVec ⟨1, ![900000]⟩ 32) (n : Fin 100000) (j : Fin 64) :
    Cert.ReferenceIdeal.Host.aggregate64 (F := Ideal) D X S T (ix2 n j)
      = D (ix1 n) * Cert.KernelIdeal.Host.aggregate64 (F := Ideal) Tb S T (ix2 n j) := by
  obtain ⟨r, hr, hDn⟩ := hD (ix1 n)
  have wfS : ScatterDims.WF ⟨2, ![100000, 64]⟩ ⟨2, ![900000, 1]⟩ ⟨2, ![900000, 64]⟩ [1] [0] [0] 1 :=
    Cert.KernelIdeal.scatter_S100000x64_S900000x1_S900000x64_1_0_0_1.wf
  have wfG : GatherDims.WF ⟨2, ![100000, 64]⟩ ⟨2, ![900000, 1]⟩ ⟨2, ![900000, 64]⟩ [1] [0] [] [0] [] 1 ![1, 64] :=
    Cert.KernelIdeal.gather_S100000x64_S900000x1_S900000x64_1_0_n_n_0_1_164.wf
  rw [hDn]
  refine scatterAdd_scale (rowScatterDims 100000 900000 64 wfS) _ _
    (Cert.KernelIdeal.Host.asColumn (F := Ideal) T) _ _ (ix2 n j) r hr (zero_apply _ _) (zero_apply _ _) ?_
  intro y hy
  obtain ⟨e, j', rfl⟩ : ∃ e j', y = ix2 e j' := ⟨y 0, y 1, eq_ix2 y⟩
  rw [← hDn]
  show broadcastInDim ⟨2, ![900000, 64]⟩ ![0, 1] _ (broadcastInDim ⟨2, ![900000, 1]⟩ ![0] _
        (Cert.ReferenceIdeal.Host.edgeFactor (F := Ideal) D S T)) (ix2 e j')
      * Host.gather (rowDims 100000 900000 64 wfG) X
          (Cert.KernelIdeal.Host.asColumn (F := Ideal) (Cert.KernelIdeal.Host.fromEnd (F := Ideal) S)) (ix2 e j')
    = D (ix1 n) * Host.gather (rowDims 100000 900000 64 wfG) Tb
          (Cert.KernelIdeal.Host.asColumn (F := Ideal) (Cert.KernelIdeal.Host.fromEnd (F := Ideal) S)) (ix2 e j')
  rw [spread_apply, column_apply]
  exact update_scale wfS wfG D X Tb hTb S T n j e j' hy

end Cert.LayerLaw

end
-- ==== Proof.lean ====
/-
  A two-layer graph convolution on 100000 nodes and 800000 edges (every node also has a self loop), against its reference.

  Both programs give node n the weight d(n): the inverse square root of its in-degree where that is positive, zero elsewhere —
  on the extended reals a nonnegative REAL whatever the degree. A layer of the reference multiplies the features by a weight
  matrix, scales edge e's source row by d(source e) · d(target e), adds the scaled rows up at the edges' targets and adds a bias;
  between the layers every entry is clamped at zero. The kernel pulls the target's factor out of the sum: a tiled region
  scales row n of the product by d(n); the host gathers the scaled rows at the edges' sources and adds them up at the targets;
  the next tiled region multiplies row n of the sum by d(n) again before the bias. The two agree entry by entry because an
  edge that lands on row n has target n, the gathers of both programs read the same source row, and multiplication by the
  nonnegative real d(n) distributes over the finite sum — the one law used, and it needs no finiteness of the inputs.
  A change of number format is the identity on the extended reals, so the kernel's narrower tables are the same tables.

  The three frames: the two kernels' are the generated ones; the reference's is its run with the result dropped.
  The idealization rewrote nothing, so `preserves` is trivial.
-/
import proofs.«157799_j60902636257285_2_alg».proof.Defs
import proofs.«157799_j60902636257285_2_alg».proof.Proof.Gen.Kernel
import proofs.«157799_j60902636257285_2_alg».proof.Proof.Gen.Kernel.Skeleton
import proofs.«157799_j60902636257285_2_alg».proof.Proof.Gen.Kernel.Launch
import proofs.«157799_j60902636257285_2_alg».proof.Proof.Gen.Kernel.Points
import proofs.«157799_j60902636257285_2_alg».proof.Proof.Gen.Kernel.Frame
import proofs.«157799_j60902636257285_2_alg».proof.Proof.Gen.KernelIdeal
import proofs.«157799_j60902636257285_2_alg».proof.Proof.Gen.KernelIdeal.Skeleton
import proofs.«157799_j60902636257285_2_alg».proof.Proof.Gen.KernelIdeal.Launch
import proofs.«157799_j60902636257285_2_alg».proof.Proof.Gen.KernelIdeal.Points
import proofs.«157799_j60902636257285_2_alg».proof.Proof.Gen.KernelIdeal.Frame
import proofs.«157799_j60902636257285_2_alg».proof.Proof.Gen.ReferenceIdeal
import proofs.«157799_j60902636257285_2_alg».proof.Proof.Gen.Pre_finite_inputs
import proofs.«157799_j60902636257285_2_alg».proof.Proof.RefRunPatched
import proofs.«157799_j60902636257285_2_alg».proof.Proof.RefResult
import proofs.«157799_j60902636257285_2_alg».proof.Proof.KernelValue
import proofs.«157799_j60902636257285_2_alg».proof.Proof.Bridge
import proofs.«157799_j60902636257285_2_alg».proof.Proof.LayerLaw
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments both programs run, and end with the same result: the kernel's is its chain of
    segments read back to the arguments, the reference's its staged two-layer function of them, and the two are one function. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2]
  exact (Cert.Bridge.value_eq _ Cert.LayerLaw.aggregate128_law Cert.LayerLaw.aggregate64_law _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
